-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 9
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S4096x4096, .f32⟩
  | .hbm, ⟨5, _⟩ => ⟨S4096x4096, .bf16⟩
  | .hbm, ⟨6, _⟩ => ⟨S1x4096, .f32⟩
  | .hbm, ⟨7, _⟩ => ⟨S8192x4096, .f32⟩
  | .hbm, ⟨8, _⟩ => ⟨S4x2048x4096, .f32⟩
  | .local _ .vmem, ⟨0, _⟩ => ⟨S128x4096, .f32⟩
  | .local _ .vmem, ⟨1, _⟩ => ⟨S128x4096, .f32⟩
  | .local _ .vmem, ⟨2, _⟩ => ⟨S4096x4096, .bf16⟩
  | .local _ .vmem, ⟨3, _⟩ => ⟨S1x4096, .f32⟩
  | .local _ .vmem, ⟨4, _⟩ => ⟨S128x4096, .f32⟩
  | .local _ .vmem, ⟨5, _⟩ => ⟨S128x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x2048x4096_S8192x4096 : S4x2048x4096.ShapeCasts S8192x4096
  transposes_S4096x4096_S4096x4096_1_0 : S4096x4096.Transposes [1, 0] S4096x4096
  bitsLt_bf16_f32 : FTy.bits .bf16 < FTy.bits .f32
  shapeCasts_S4096_S1x4096 : S4096.ShapeCasts S1x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  reduces_S128x4096_S128 : S128x4096.Reduces [1] S128
  shapeCasts_S128_S128x1 : S128.ShapeCasts S128x1
  broadcasts_S128x1_S128x4096 : S128x1.Broadcasts S128x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  shapeCasts_S8192x4096_S4x2048x4096 : S8192x4096.ShapeCasts S4x2048x4096
  dot_S128x4096_S4096x4096_S128x4096_1_0_0_1_n_n_wf : DotDims.WF S128x4096 S4096x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S8192x4096.size a
  hwx0_3 : ∀ i : grid0.Coords, EltTy.bits .f32 = 32 ∨ (Rect.block (s := S8192x4096) S128x4096.size (cc0_transform_3 i) (hinb0_3 i)).WholeWords (EltTy.packing .f32)

variable [Facts₀]

def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf

abbrev win0_0 : Pipeline.Window sig grid0 :=
  Pipeline.Window.ofSpec (Memref.whole main_v0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4x2048x4096, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x4096, .f32⟩
  | .hbm, ⟨15, _⟩ => ⟨S4x2048x4096, .f32⟩
  | .hbm, ⟨16, _⟩ => ⟨S4x2048x4096, .f32⟩
  | .hbm, ⟨17, _⟩ => ⟨S4x2048x4096, .f32⟩
  | .hbm, ⟨18, _⟩ => ⟨S4x2048x4096, .f32⟩
  | .hbm, ⟨19, _⟩ => ⟨S4x2048x4096, .f32⟩
  | .hbm, ⟨20, _⟩ => ⟨S1x1x4096, .f32⟩
  | .hbm, ⟨21, _⟩ => ⟨S4x2048x4096, .f32⟩
  | .hbm, ⟨22, _⟩ => ⟨S4x2048x4096, .f32⟩
  | .hbm, ⟨23, _⟩ => ⟨S4x2048x4096, .f32⟩
  | .hbm, ⟨24, _⟩ => ⟨S_, .f32⟩
  | .hbm, ⟨25, _⟩ => ⟨S4x2048, .f32⟩
  | .hbm, ⟨26, _⟩ => ⟨S4x2048x1, .f32⟩
  | .hbm, ⟨27, _⟩ => ⟨S_, .f32⟩
  | .hbm, ⟨28, _⟩ => ⟨S_, .f32⟩
  | .hbm, ⟨29, _⟩ => ⟨S4x2048x1, .f32⟩
  | .hbm, ⟨30, _⟩ => ⟨S4x2048x1, .f32⟩
  | .hbm, ⟨31, _⟩ => ⟨S_, .f32⟩
  | .hbm, ⟨32, _⟩ => ⟨S4x2048x1, .f32⟩
  | .hbm, ⟨33, _⟩ => ⟨S4x2048x1, .f32⟩
  | .hbm, ⟨34, _⟩ => ⟨S4x2048x4096, .f32⟩
  | .hbm, ⟨35, _⟩ => ⟨S4x2048x4096, .f32⟩
  | .hbm, ⟨36, _⟩ => ⟨S4x2048x4096, .f32⟩
  | .hbm, ⟨37, _⟩ => ⟨S4x2048x4096, .f32⟩
  | .hbm, ⟨38, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_call2_v0 : Ref sig .tc := ⟨.hbm, 28, rfl⟩
abbrev main_call2_v1 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  reducesTo_S4x2048x4096_S4x2048_d2 : S4x2048x4096.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.LibRowScale.lean ====
/-
  Scaling the rows of a matrix product by a positive real, over the extended reals.

  For a row `a` and a column `w` of extended reals and a real `m > 0`,
      (∑ k, a k * w k) * (1 / m)  =  ∑ k, (a k / m) * w k ,
  with no finiteness assumption on `a` or `w`: multiplication by a nonnegative real distributes over
  addition of extended reals (also over `⊤ + ⊥`), and the product of extended reals is commutative and
  associative. The divisor of a mean aggregation is `max c 1` for a count `c` — a finite sum of ones,
  so a real, and `max c 1 ≥ 1` —; `sum_one` and `max_one_real` say so.

  Counting by scatter-add: the host's accumulating scatter holds, at each entry, the operand's entry plus the sum of
  the updates that land on it. When the operand's entry is zero and every update is one, the entry is therefore a
  natural number read as a real (`scatterAdd_ones_nat`, `host_scatterAdd_ones_nat`): the number of updates that
  land there. Which updates those are plays no role.
-/
import Idealize.ShloMosaic.PureOps.Ideal
import Idealize.ShloMosaic.PureOps.Ideal.Laws

noncomputable section

open Idealize.ShloMosaic

namespace Cert.RowScale

/-- A nonnegative real factor moves into a finite sum of extended reals. -/
theorem sum_mul_real {ι : Type*} (s : Finset ι) (f : ι → EReal) (r : ℝ) (hr : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- The row-scale law: a matrix product's entry times the reciprocal of a positive real is the entry of the
    product whose left rows were divided by that real first. -/
theorem dot_mul_inv {ι : Type*} [Fintype ι] (a w : ι → EReal) (m : ℝ) (hm : 0 < m) :
    (∑ k, a k * w k) * Ideal.div 1 (m : EReal) = ∑ k, Ideal.div (a k) (m : EReal) * w k := by
  have hne : m ≠ 0 := ne_of_gt hm
  rw [Ideal.div_coe hne, one_mul, sum_mul_real _ _ _ (by positivity)]
  refine Finset.sum_congr rfl fun k _ => ?_
  rw [Ideal.div_coe hne, mul_right_comm]

/-- A finite sum of ones, as an extended real, is the number of its terms. -/
theorem sum_one {ι : Type*} (s : Finset ι) : (∑ _j ∈ s, (1 : EReal)) = ((s.card : ℝ) : EReal) := by
  classical
  induction s using Finset.induction_on with
  | empty => simp
  | insert a s ha ih =>
    rw [Finset.sum_insert ha, ih, Finset.card_insert_of_notMem ha]
    push_cast
    rw [add_comm]

/-- The larger of a nonnegative count and one is a positive real. -/
theorem max_one_real (n : ℕ) : ∃ m : ℝ, 0 < m ∧ max (0 + ((n : ℝ) : EReal)) 1 = (m : EReal) :=
  ⟨max (n : ℝ) 1, lt_of_lt_of_le one_pos (le_max_right _ _), by
    rw [zero_add, ← EReal.coe_one]
    exact (EReal.coe_strictMono.monotone.map_max).symm⟩

/-- The f32 word of `1.0` denotes the real one. -/
theorem ofBits_one_f32 : Ideal.ofBits .f32 0x3F800000#32 = 1 := by
  simp [Ideal.ofBits, Ideal.ieee]
  rw [← EReal.coe_mul]
  norm_num

/-- A scatter-add of ones into an entry that holds zero is zero plus a natural number, for any shapes, scatter
    dimension numbers and index array. -/
theorem scatterAdd_ones_nat {s si su : Shape} (d : ScatterDims s si su) {w : Nat} (x : s.Idx → EReal) (idx : IVec si w)
    (upd : su.Idx → EReal) (i : s.Idx) (hx : x i = 0) (hu : ∀ j, upd j = 1) :
    ∃ n : ℕ, Ideal.hostScatterAdd d x idx upd i = 0 + ((n : ℝ) : EReal) := by
  unfold Ideal.hostScatterAdd
  rw [hx, Finset.sum_congr rfl (fun j _ => hu j), sum_one]
  exact ⟨_, rfl⟩

/-- The same for the host's scatter-add as a program states it, read at the ideal values. -/
theorem host_scatterAdd_ones_nat {s si su : Shape} (d : ScatterDims s si su) {w : Nat} (x : FVec Ideal s .f32) (idx : IVec si w)
    (upd : FVec Ideal su .f32) (i : s.Idx) (hx : x i = 0) (hu : ∀ j, upd j = 1) :
    ∃ n : ℕ, Host.scatterAdd d x idx upd i = 0 + ((n : ℝ) : EReal) :=
  scatterAdd_ones_nat d x idx upd i hx hu

end Cert.RowScale

end
-- ==== Proof.RowQuant.lean ====
/-
  Per-row symmetric fake quantization over the extended reals, and a dense layer between two of them.

  A row `r` of extended reals has the scale `max(ε, max_k |r k|) / 127` (the maximum folded from −∞); its integer code at
  `k` is `r k / scale` rounded to nearest, ties to even; its fake quantization is code × scale.

  The dense layer `y o = ∑ k, q k · W o k + b o` over the fake-quantized row `q k = code k · scale` can take the scale out
  of the sum, `(∑ k, code k · W o k) · scale + b o`, as soon as the scale is a nonnegative real: a nonnegative real factor
  distributes over any finite sum of extended reals, infinite terms included. The scale is a nonnegative real when every
  entry of the row is a real number (then each |r k| is a nonnegative real, so is their maximum over a nonempty row, so is
  its maximum with ε, and dividing by 127 keeps that). Nothing is asked of `W` or `b`.
-/
import Idealize.ShloMosaic.PureOps.Ideal
import Idealize.ShloMosaic.PureOps.Ideal.Laws
import proofs.«107071_j61598420959615_2_alg».proof.Proof.LibRowScale

noncomputable section

open scoped BigOperators

namespace Cert.RowQuant

open Idealize.ShloMosaic

/-! ## The three literals -/

/-- The word the row maxima are folded from denotes −∞. -/
theorem ofBits_negInf : Ideal.ofBits .f32 0xFF800000#32 = ⊥ := by
  simp [Ideal.ofBits, Ideal.ieee]

/-- The word of the code range denotes the real 127. -/
theorem ofBits_127 : Ideal.ofBits .f32 0x42FE0000#32 = ((127 : ℝ) : EReal) := by
  simp [Ideal.ofBits, Ideal.ieee, -EReal.coe_mul]; norm_num

/-- The word of the scale's floor ε denotes a nonnegative real (10995116 · 2⁻⁴⁰, a little under 10⁻⁵). -/
theorem ofBits_eps : ∃ e : ℝ, 0 ≤ e ∧ Ideal.ofBits .f32 0x3727C5AC#32 = (e : EReal) := by
  refine ⟨10995116 * (2 : ℝ) ^ (-40 : ℤ), by positivity, ?_⟩
  simp [Ideal.ofBits, Ideal.ieee, -EReal.coe_mul]

/-! ## A row's scale, codes and fake quantization -/

variable {K N : ℕ}

/-- The largest magnitude of a row, folded from −∞. -/
def absMax (r : Fin K → EReal) : EReal :=
  (Finset.univ : Finset (Fin K)).fold max (Ideal.ofBits .f32 0xFF800000#32) (fun k => max (r k) (-(r k)))

/-- The row's quantization step. -/
def scale (r : Fin K → EReal) : EReal :=
  Ideal.div (max (Ideal.ofBits .f32 0x3727C5AC#32) (absMax r)) (Ideal.ofBits .f32 0x42FE0000#32)

/-- The integer code of entry `k`. -/
def code (r : Fin K → EReal) (k : Fin K) : EReal :=
  Ideal.liftRound Ideal.roundHalfEven (Ideal.div (r k) (scale r))

/-- The row fake-quantized: each entry replaced by its code times the step. -/
def fakeQuant (r : Fin K → EReal) (k : Fin K) : EReal := code r k * scale r

/-- The dense layer on the fake-quantized row. -/
def denseQuant (x : Fin K → EReal) (W : Fin N → Fin K → EReal) (b : Fin N → EReal) (o : Fin N) : EReal :=
  (∑ k, fakeQuant x k * W o k) + b o

/-- The dense layer on the integer codes, the step applied to the sum. -/
def denseScaled (x : Fin K → EReal) (W : Fin N → Fin K → EReal) (b : Fin N → EReal) (o : Fin N) : EReal :=
  (∑ k, code x k * W o k) * scale x + b o

/-! ## The scale of a row of reals -/

/-- The maximum, folded from −∞, of a nonempty finite family of nonnegative reals is a nonnegative real. -/
theorem fold_max_coe {ι : Type*} (s : Finset ι) (hs : s.Nonempty) (f : ι → ℝ) (hf : ∀ i, 0 ≤ f i) :
    ∃ a : ℝ, 0 ≤ a ∧ s.fold max (⊥ : EReal) (fun i => (f i : EReal)) = (a : EReal) := by
  classical
  induction hs using Finset.Nonempty.cons_induction with
  | singleton a => exact ⟨f a, hf a, by simp⟩
  | cons a s ha hs ih =>
    obtain ⟨r, hr0, hr⟩ := ih
    refine ⟨max (f a) r, le_max_of_le_right hr0, ?_⟩
    rw [Finset.fold_cons, hr]
    exact (EReal.coe_strictMono.monotone.map_max).symm

/-- The magnitude of a real, as the extended reals compute it. -/
theorem abs_coe (v : ℝ) : max (v : EReal) (-(v : EReal)) = ((|v| : ℝ) : EReal) := by
  rw [← EReal.coe_neg, abs_eq_max_neg]
  exact (EReal.coe_strictMono.monotone.map_max).symm

/-- A nonempty row of real numbers has a nonnegative real step. -/
theorem scale_real (hK : 0 < K) (r : Fin K → EReal) (hr : ∀ k, ∃ v : ℝ, r k = (v : EReal)) :
    ∃ s : ℝ, 0 ≤ s ∧ scale r = (s : EReal) := by
  choose v hv using hr
  haveI : Nonempty (Fin K) := ⟨⟨0, hK⟩⟩
  obtain ⟨a, ha0, ha⟩ := fold_max_coe (Finset.univ : Finset (Fin K)) Finset.univ_nonempty (fun k => |v k|) (fun k => abs_nonneg _)
  obtain ⟨e, he0, he⟩ := ofBits_eps
  have hm : absMax r = (a : EReal) := by
    unfold absMax
    rw [ofBits_negInf, ← ha]
    exact congrArg (fun f => (Finset.univ : Finset (Fin K)).fold max (⊥ : EReal) f) (funext fun k => by rw [hv k, abs_coe])
  refine ⟨max e a * (1 / 127), by positivity, ?_⟩
  unfold scale
  rw [hm, he, ofBits_127, Ideal.div_coe (by norm_num : (127 : ℝ) ≠ 0), EReal.coe_mul]
  exact congrArg (· * ((1 / 127 : ℝ) : EReal)) (EReal.coe_strictMono.monotone.map_max).symm

/-! ## The step moves out of the sum -/

/-- With a nonnegative real step, the dense layer on the codes with the step applied to the sum is the dense layer on
    the fake-quantized row. -/
theorem denseScaled_eq (x : Fin K → EReal) (W : Fin N → Fin K → EReal) (b : Fin N → EReal) (s : ℝ) (hs : 0 ≤ s)
    (h : scale x = (s : EReal)) : denseScaled x W b = denseQuant x W b := by
  funext o
  unfold denseScaled denseQuant fakeQuant
  rw [h, Cert.RowScale.sum_mul_real _ _ s hs]
  exact congrArg (· + b o) (Finset.sum_congr rfl fun k _ => mul_right_comm _ _ _)

/-- The same for a nonempty row of real numbers. -/
theorem denseScaled_eq_of_real (hK : 0 < K) (x : Fin K → EReal) (hx : ∀ k, ∃ v : ℝ, x k = (v : EReal))
    (W : Fin N → Fin K → EReal) (b : Fin N → EReal) : denseScaled x W b = denseQuant x W b := by
  obtain ⟨s, hs, h⟩ := scale_real hK x hx
  exact denseScaled_eq x W b s hs h

end Cert.RowQuant

end
-- ==== Proof.FiniteInputs.lean ====
/-
  Finite inputs are real numbers.

  The precondition of the claim is a printed predicate: for each of the three float arrays it takes
  the magnitude |a| = max a (-a) of every entry, compares it strictly below the word 0x7F800000
  (which denotes +∞), folds the resulting truth values by conjunction over all axes starting from
  true, and finally takes the conjunction of the three folds. The claim assumes that this predicate
  is true.

  This module reads that assumption back for the first array. A conjunction that is true has both
  conjuncts true; a fold by conjunction over all axes that is true met a true value at every index;
  so |x i| < +∞ at every index i. Over the extended reals the only values whose magnitude is not
  below +∞ are -∞ and +∞ themselves (both have magnitude +∞), hence x i is a real number.
-/
import proofs.«107071_j61598420959615_2_alg».proof.Pre_finite_inputs
import Idealize.ShloMosaic.PureOps.Ideal
import Idealize.ShloMosaic.Lib.ReduceAll
import Idealize.ShloMosaic.Lib.ValueIdx

noncomputable section

namespace Cert.FiniteInputs

open Idealize.ShloMosaic

/-- The single-precision word 0x7F800000 (sign 0, exponent all ones, fraction 0) denotes +∞. -/
theorem posInf_word : Ideal.ofBits .f32 0x7F800000#32 = (⊤ : EReal) := by
  simp [Ideal.ofBits, Ideal.ieee]

/-- An extended real whose magnitude max a (-a) is strictly below +∞ is a real number:
    both -∞ and +∞ have magnitude +∞, which is not below itself. -/
theorem real_of_abs_lt_top (a : EReal) (h : Ideal.cmp .olt (max a (-a)) (⊤ : EReal) = 1#1) :
    ∃ v : ℝ, a = (v : EReal) := by
  induction a using EReal.rec with
  | bot => simp [Ideal.cmp] at h
  | coe r => exact ⟨r, rfl⟩
  | top => simp [Ideal.cmp] at h

/-- Under the precondition every entry of the first argument is a real number. -/
theorem arg0_real [Cert.Pre_finite_inputs.Facts]
    (x : FVec Ideal Cert.Pre_finite_inputs.S4x2048x4096 .f32) (W : FVec Ideal Cert.Pre_finite_inputs.S4096x4096 .f32)
    (b : FVec Ideal Cert.Pre_finite_inputs.S4096 .f32)
    (h : Cert.Pre_finite_inputs.fn (F := Ideal) x W b = fun _ => 1#1)
    (i : Cert.Pre_finite_inputs.S4x2048x4096.Idx) : ∃ v : ℝ, x i = (v : EReal) := by
  -- the rank-0 result has exactly one index
  haveI : Subsingleton Cert.Pre_finite_inputs.S_.Idx := ⟨fun a b => funext fun d => d.elim0⟩
  -- the predicate, read at that index
  have h0 := congrFun h ValueIdx.ix0
  unfold Cert.Pre_finite_inputs.fn at h0
  dsimp only at h0
  -- (p ∧ q) ∧ r is true, so p — the fold over the first array — is true
  have h1 := (IntOp.andi_eq_one.1 (IntOp.andi_eq_one.1 h0).1).1
  -- a conjunction over all axes that is true is true at every index
  have h2 := Host.reduce_andi_all _ _ _ _ _ h1 i
  -- at index i the compared pair is |x i| and the constant word
  have h3 : Ideal.cmp .olt (max (x i) (-(x i))) (Ideal.ofBits .f32 0x7F800000#32) = 1#1 := h2
  rw [posInf_word] at h3
  exact real_of_abs_lt_top (x i) h3

end Cert.FiniteInputs

end
-- ==== Proof.LibDenseEntry.lean ====
/-
  The plain matrix product [M, K] × [K, N] → [M, N] over the extended reals, read at an entry, for any extents and
  any dimension record with the plain axis lists: entry (p, n) is ∑ k, l (p, k) · r (k, n) — for the matrix unit's
  product into an accumulator that is zero everywhere, and for the host's product.
-/
import Idealize.ShloMosaic.PureOps.Ideal.Laws
import Idealize.ShloMosaic.Lib.ValueIdx

noncomputable section

namespace Cert.LibDenseEntry

open Idealize.ShloMosaic Idealize.ShloMosaic.ValueIdx

variable {M K N : ℕ}

/-- [M, K] × [K, N] → [M, N], the left operand's second axis contracted with the right operand's first:
    entry (p, n) is ∑ k, l (p, k) · r (k, n). -/
theorem matmul_plain_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

/-- The host's product of the same shape, read the same way. -/
theorem dotGeneral_plain_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (p : Fin M) (n : Fin N) :
    FloatOps.dotGeneral d prec sched l r (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.dotGeneral_apply d prec sched l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

end Cert.LibDenseEntry

end
-- ==== Proof.LibRank2.lean ====
/-
  Rank-2 arrays read at coordinates, over the extended reals, for any extents.

  * A sum or a maximum over one axis of an [a, b] array, read at the kept coordinate: summing (or folding max
    over) the last axis at row i ranges over the entries (i, k); over the first axis at column j, over (k, j).
  * The matrix product contracted over the SECOND axis of both operands, [M, K] × [N, K] → [M, N]
    (entry (r, n) = ∑ k, l (r, k) · r (n, k)), and over the FIRST axis of both, [K, M] × [K, N] → [M, N]
    (entry (r, n) = ∑ k, l (k, r) · r (k, n)), each into an accumulator that is zero everywhere.
  * Shape casts that only insert unit axes keep the one varying coordinate: [a] → [1, 1, a].
-/
import Idealize.ShloMosaic.PureOps.Ideal.Laws
import Idealize.ShloMosaic.Lib.ValueIdx
import Idealize.ShloMosaic.Lib.Pipeline.Value

noncomputable section

namespace Cert.LibRank2

open Idealize.ShloMosaic Idealize.ShloMosaic.ValueIdx

variable {a b : ℕ} {φ : FTy}

/-! ## One-axis reductions -/

/-- Putting coordinate `k` back on the last axis of row `i` gives the entry (i, k). -/
theorem lift_last (h : (⟨2, ![a, b]⟩ : Shape).Reduces [1] ⟨1, ![a]⟩) (i : Fin a) (k : Fin b) :
    h.lift (ix1 i) k = ix2 i k :=
  funext fun d => Fin.ext (by match d with | ⟨0, _⟩ => rfl | ⟨1, _⟩ => rfl)

/-- Putting coordinate `k` back on the first axis of column `j` gives the entry (k, j). -/
theorem lift_first (h : (⟨2, ![a, b]⟩ : Shape).Reduces [0] ⟨1, ![b]⟩) (j : Fin b) (k : Fin a) :
    h.lift (ix1 j) k = ix2 k j :=
  funext fun d => Fin.ext (by match d with | ⟨0, _⟩ => rfl | ⟨1, _⟩ => rfl)

/-- The sum over the last axis, at row `i`. -/
theorem sum_last (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_last h i k))

/-- The sum over the first axis, at column `j`. -/
theorem sum_first (src : FVec Ideal ⟨2, ![a, b]⟩ φ) (acc : BitVec φ.bits) (h : (⟨2, ![a, b]⟩ : Shape).Reduces [0] ⟨1, ![b]⟩)
    (hφ : FKind.Formats φ) (hacc : acc = FKind.add.neutral φ hφ) (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (lift_first h j k))

/-- The maximum over the last axis, at row `i`: the fold of max from the accumulator's value. -/
theorem max_last (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) fun k => src (ix2 i k) :=
  (Ideal.multiReduction_maximumf_single src acc h hφ hacc (ix1 i)).trans
    (congrArg ((Finset.univ : Finset (Fin b)).fold max (Ideal.ofBits φ acc)) (funext fun k => congrArg src (lift_last h i k)))

/-- The maximum over the first axis, at column `j`. -/
theorem max_first (src : FVec Ideal ⟨2, ![a, b]⟩ φ) (acc : BitVec φ.bits) (h : (⟨2, ![a, b]⟩ : Shape).Reduces [0] ⟨1, ![b]⟩)
    (hφ : FKind.Formats φ) (hacc : acc = FKind.maximumf.neutral φ hφ) (j : Fin b) :
    multiReduction .maximumf [0] ⟨1, ![b]⟩ src acc h hφ hacc (ix1 j)
      = (Finset.univ : Finset (Fin a)).fold max (Ideal.ofBits φ acc) fun k => src (ix2 k j) :=
  (Ideal.multiReduction_maximumf_single src acc h hφ hacc (ix1 j)).trans
    (congrArg ((Finset.univ : Finset (Fin a)).fold max (Ideal.ofBits φ acc)) (funext fun k => congrArg src (lift_first h j k)))

/-! ## Two transposed matrix products -/

section dots
variable {M K N : ℕ}

theorem rhsT_rank : (DotDims.transposedRhs M K N).contr.rank = 1 := rfl
theorem rhsT_size : (DotDims.transposedRhs M K N).contr.size ⟨0, by rw [rhsT_rank]; exact Nat.one_pos⟩ = K := rfl

/-- The left operand is read in the result's row … -/
theorem rhsT_lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl
/-- … and the right operand in the row numbered by the result's column. -/
theorem rhsT_rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- [M, K] × [N, K] → [M, N], contracted over the second axis of both: entry (r, n) is ∑ k, l (r, k) · r (n, k). -/
theorem matmul_rhsT_zero_apply {φ₁ φ₂ : FTy} (prec : Option ContractPrecision)
    (l : FVec Ideal ⟨2, ![M, K]⟩ φ₁) (r : FVec Ideal ⟨2, ![N, K]⟩ φ₂) (p : Fin M) (n : Fin N) :
    FloatOps.matmul (DotDims.transposedRhs M K N) prec l r (constant ⟨2, ![M, N]⟩ .f32 0x00000000#32) (ix2 p n)
      = ∑ k : Fin K, l (ix2 p k) * r (ix2 n k) := by
  refine (Ideal.matmul_constant_zero_apply (DotDims.transposedRhs M K N) prec l r (ix2 p n)).trans ?_
  rw [← Equiv.sum_comp (contrEquiv1 (DotDims.transposedRhs M K N) K rhsT_rank rhsT_size).symm]
  refine Finset.sum_congr rfl fun k _ => ?_
  have hk := contrEquiv1_symm_val (DotDims.transposedRhs M K N) K rhsT_rank rhsT_size k
  have el : (DotDims.transposedRhs M K N).lhsIdx (ix2 p n) ((contrEquiv1 (DotDims.transposedRhs M K N) K rhsT_rank rhsT_size).symm k) = ix2 p k :=
    funext fun d => Fin.ext (by
      match d with
      | ⟨0, _⟩ => exact rhsT_lhs_row _ _
      | ⟨1, _⟩ => exact ((DotDims.transposedRhs M K N).lhsIdx_val_of_single rfl (ix2 p n) _).trans hk)
  have er : (DotDims.transposedRhs M K N).rhsIdx (ix2 p n) ((contrEquiv1 (DotDims.transposedRhs M K N) K rhsT_rank rhsT_size).symm k) = ix2 n k :=
    funext fun d => Fin.ext (by
      match d with
      | ⟨0, _⟩ => exact rhsT_rhs_row _ _
      | ⟨1, _⟩ => exact ((DotDims.transposedRhs M K N).rhsIdx_val_of_single rfl (ix2 p n) _).trans hk)
  exact congrArg₂ (· * ·) (congrArg l el) (congrArg r er)

end dots

/-! ## Contracted over the first axis of both operands -/

section lhsT
variable {M K N : ℕ}

/-- [K, M] × [K, N] → [M, N], contracted over the first axis of both: entry (r, n) is ∑ k, l (k, r) · r (k, n).
    Stated for any dimension record with these axis lists. -/
theorem matmul_lhsT_zero_apply {φ₁ φ₂ : FTy} (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = [])
    (prec : Option ContractPrecision)
    (l : FVec Ideal ⟨2, ![K, M]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 k p) * r (ix2 k n) := by
  obtain ⟨lc, rc, ln, rn, lb, rb, wf⟩ := d
  dsimp only at h1 h2 h3 h4 h5 h6
  subst h1 h2 h3 h4 h5 h6
  generalize hd : (⟨[0], [0], [1], [1], [], [], wf⟩ : DotDims ⟨2, ![K, M]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [0] := by subst hd; rfl
  have hrc : d.rhsContracting = [0] := by subst hd; rfl
  have lrow : ∀ (j : (⟨2, ![M, N]⟩ : Shape).Idx) (q : d.contr.Idx), (d.lhsIdx j q 1).val = (j 0).val := by
    intro j q; subst hd
    unfold DotDims.lhsIdx
    rw [dif_neg (show ¬(1 : Fin 2) ∈ ([] : List (Fin 2)) from List.not_mem_nil),
      dif_pos (show (1 : Fin 2) ∈ ([1] : List (Fin 2)) from List.mem_singleton.mpr rfl)]
    rfl
  have rrow : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 k p :=
    funext fun a => Fin.ext (by
      match a with
      | ⟨0, _⟩ => exact (d.lhsIdx_val_of_single hlc (ix2 p n) _).trans hk
      | ⟨1, _⟩ => exact lrow _ _)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rrow _ _)
  exact congrArg₂ (· * ·) (congrArg l el) (congrArg r er)

end lhsT

/-! ## Unit axes in front of a vector -/

/-- An `[a]` array cast to `[1, 1, a]` reads, at `(u, v, i)`, the operand at `i`. -/
theorem shapeCast_a_11a_apply {α : Type} {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; omega)

end Cert.LibRank2

end
-- ==== Proof.LibColumn.lean ====
/-
  Layout operations read at an index given by coordinates: the KEEP-DIMS COLUMN forms, beside the library's
  leading-unit-axis forms (Lib/ValueLayout.lean). A sum taken with its axis kept leaves a trailing unit axis: a vector
  `[a]` is cast to the column `[a, 1]`, a matrix `[a, b]` to `[a, b, 1]`, and such a column or trailing-unit block is then
  broadcast along the unit axis (`[a, 1]` to `[a, b]`, `[a, b, 1]` to `[a, b, c]`); a `[1, b, c]` block is broadcast down a
  new leading extent (`[1, b, c]` to `[a, b, c]`). Each lemma reads one such operation at an index written `ixN …`
  (Lib/ValueIdx.lean) as the operand at the index with the unit coordinate dropped or set to `0`; each is the parent
  lemma of Lib/Pipeline/Value.lean (`shapeCast_apply`, `broadcastTo_apply`) with the coordinates' arithmetic done.
-/
import Idealize.ShloMosaic.Lib.ValueLayout

namespace Cert.LibColumn

open Idealize.ShloMosaic Idealize.ShloMosaic.ValueIdx

variable {α : Type}

/-! ## A trailing unit axis added by a shape cast -/

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, b]` array cast to `[a, b, 1]` reads, at `(i, j, u)`, the operand at `(i, j)`, whatever the unit coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## A unit axis broadcast -/

/-- A column `[a, 1]` broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, 1]` block broadcast to `[a, b, c]` reads, at `(i, j, e)`, the block at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (e : Fin c) :
    broadcastTo ⟨3, ![a, b, c]⟩ v h (ix3 i j e) = v (ix3 i j (0 : Fin 1)) := by
  refine broadcastTo_apply v h (ix3 i j e) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` block broadcast to `[a, b, c]` reads, at `(p, i, j)`, the block at `(0, i, j)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

end Cert.LibColumn
-- ==== Proof.KernelBody.lean ====
/-
  The kernel body's stored tile, entry by entry.

  On a [128, 4096] tile of activations the body takes, row by row, the quantization step of the row, rounds the row's
  quotients by the step to integer codes, multiplies the [128, 4096] tile of codes with the resident [4096, 4096] weight
  tile (already transposed: entry (k, o)), applies the row's step to each product row and adds the bias row; then it
  fake-quantizes each row of that result. So entry (p, o) of the stored tile is the fake quantization, at o, of the row
  o ↦ (∑ k, code k · w (k, o)) · step + b o built from row p of the activations.
-/
import proofs.«107071_j61598420959615_2_alg».proof.Proof.Gen.KernelIdeal.Skeleton
import proofs.«107071_j61598420959615_2_alg».proof.Proof.RowQuant
import proofs.«107071_j61598420959615_2_alg».proof.Proof.LibDenseEntry
import proofs.«107071_j61598420959615_2_alg».proof.Proof.LibRank2
import proofs.«107071_j61598420959615_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Idealize.ShloMosaic Idealize.ShloMosaic.ValueIdx Cert.RowQuant

variable [Facts]
open Facts₀

section anyF
variable {F : FTy → Type} [FloatOps F]

/-- The column of quantization steps of a tile, one per row: the row's largest magnitude, floored at ε, over 127. -/
def stepCol (v : FVec F S128x4096 .f32) : FVec F S128x1 .f32 :=
  divf (maximumf (broadcast S128x1 (Scalar.ofBits .f32 0x3727C5AC#32))
      (shapeCast S128x1 (multiReduction .maximumf [1] S128 (absf v) 0xFF800000#32 reduces_S128x4096_S128 (.inl rfl) rfl)
        shapeCasts_S128_S128x1))
    (broadcast S128x1 (Scalar.ofBits .f32 0x42FE0000#32))

/-- The tile's integer codes: each entry over its row's step, rounded to nearest, ties to even. -/
def codes (v : FVec F S128x4096 .f32) : FVec F S128x4096 .f32 :=
  roundeven (divf v (broadcastTo S128x4096 (stepCol v) broadcasts_S128x1_S128x4096))

/-- The tile after the dense layer: codes times weights, each row scaled by its step, plus the bias row. -/
def dense (x0 : Vec F S128x4096 .f32) (x1 : Vec F S4096x4096 .bf16) (x2 : Vec F S1x4096 .f32) : FVec F S128x4096 .f32 :=
  addf (mulf (matmul dot_S128x4096_S4096x4096_S128x4096_1_0_0_1_n_n none
        (truncf .bf16 (codes (shapeCast S128x4096 x0 shapeCasts_S128x4096_S128x4096)) bitsLt_bf16_f32)
        (shapeCast S4096x4096 x1 shapeCasts_S4096x4096_S4096x4096) (constant S128x4096 .f32 0x00000000#32))
      (broadcastTo S128x4096 (stepCol (shapeCast S128x4096 x0 shapeCasts_S128x4096_S128x4096)) broadcasts_S128x1_S128x4096))
    (broadcastTo S128x4096 (shapeCast S1x4096 x2 shapeCasts_S1x4096_S1x4096) broadcasts_S1x4096_S128x4096)

/-- The stored tile is the dense tile's codes times the dense tile's steps. -/
theorem pay_eq (x0 : Vec F S128x4096 .f32) (x1 : Vec F S4096x4096 .bf16) (x2 : Vec F S1x4096 .f32) :
    Gen.k0_pay1 x0 x1 x2
      = mulf (codes (dense x0 x1 x2)) (broadcastTo S128x4096 (stepCol (dense x0 x1 x2)) broadcasts_S128x1_S128x4096) := rfl

end anyF

/-- A row's step, read anywhere in the column, is the scale of that row. -/
theorem stepCol_apply (v : FVec Ideal S128x4096 .f32) (p : Fin 128) (u : Fin 1) :
    stepCol (F := Ideal) v (ix2 p u) = scale (fun k : Fin 4096 => v (ix2 p k)) := by
  have hred : shapeCast S128x1 (multiReduction (F := Ideal) .maximumf [1] S128 (absf v) 0xFF800000#32 reduces_S128x4096_S128 (.inl rfl) rfl)
        shapeCasts_S128_S128x1 (ix2 p u)
      = (Finset.univ : Finset (Fin 4096)).fold max (Ideal.ofBits .f32 0xFF800000#32)
          (fun k => max (v (ix2 p k)) (-(v (ix2 p k)))) :=
    (Cert.LibColumn.shapeCast_a_a1_apply _ shapeCasts_S128_S128x1 p u).trans
      (Cert.LibRank2.max_last (absf v) 0xFF800000#32 reduces_S128x4096_S128 (.inl rfl) rfl p)
  exact congrArg (fun t => Ideal.div (max (Ideal.ofBits .f32 0x3727C5AC#32) t) (Ideal.ofBits .f32 0x42FE0000#32)) hred

/-- The step broadcast along a row. -/
theorem stepRow_apply (v : FVec Ideal S128x4096 .f32) (p : Fin 128) (k : Fin 4096) :
    broadcastTo S128x4096 (stepCol (F := Ideal) v) broadcasts_S128x1_S128x4096 (ix2 p k)
      = scale (fun k : Fin 4096 => v (ix2 p k)) :=
  (Cert.LibColumn.broadcastTo_a1_ab_apply _ broadcasts_S128x1_S128x4096 p k).trans (stepCol_apply v p 0)

/-- The tile's codes are the rows' codes. -/
theorem codes_apply (v : FVec Ideal S128x4096 .f32) (p : Fin 128) (k : Fin 4096) :
    codes (F := Ideal) v (ix2 p k) = code (fun k : Fin 4096 => v (ix2 p k)) k :=
  congrArg (fun t => Ideal.liftRound Ideal.roundHalfEven (Ideal.div (v (ix2 p k)) t)) (stepRow_apply v p k)

/-- The dense tile, entry by entry: the scaled dense layer of row `p`. -/
theorem dense_apply (x0 : FVec Ideal S128x4096 .f32) (x1 : FVec Ideal S4096x4096 .bf16) (x2 : FVec Ideal S1x4096 .f32)
    (p : Fin 128) (n : Fin 4096) :
    dense (F := Ideal) x0 x1 x2 (ix2 p n)
      = denseScaled (fun k : Fin 4096 => x0 (ix2 p k)) (fun (o k : Fin 4096) => x1 (ix2 k o))
          (fun o : Fin 4096 => x2 (ix2 (0 : Fin 1) o)) n := by
  have h1 : FloatOps.matmul dot_S128x4096_S4096x4096_S128x4096_1_0_0_1_n_n none
        (truncf .bf16 (codes (F := Ideal) x0) bitsLt_bf16_f32) x1 (constant S128x4096 .f32 0x00000000#32) (ix2 p n)
      = ∑ k : Fin 4096, code (fun k : Fin 4096 => x0 (ix2 p k)) k * x1 (ix2 k n) :=
    (Cert.LibDenseEntry.matmul_plain_zero_apply dot_S128x4096_S4096x4096_S128x4096_1_0_0_1_n_n rfl rfl rfl rfl rfl rfl none
      (truncf .bf16 (codes (F := Ideal) x0) bitsLt_bf16_f32) x1 p n).trans
      (Finset.sum_congr rfl fun k _ => congrArg (· * x1 (ix2 k n)) (codes_apply x0 p k))
  have h2 := stepRow_apply x0 p n
  have h3 : broadcastTo S128x4096 x2 broadcasts_S1x4096_S128x4096 (ix2 p n) = x2 (ix2 (0 : Fin 1) n) :=
    broadcastTo_1b_ab_apply x2 broadcasts_S1x4096_S128x4096 p n
  unfold dense denseScaled
  rw [shapeCast_self, shapeCast_self, shapeCast_self]
  show _ = (∑ k : Fin 4096, code (fun k : Fin 4096 => x0 (ix2 p k)) k * x1 (ix2 k n))
      * scale (fun k : Fin 4096 => x0 (ix2 p k)) + x2 (ix2 (0 : Fin 1) n)
  rw [← h1, ← h2, ← h3]
  rfl

/-- The stored tile, entry by entry: the fake quantization of row `p` of the dense tile. -/
theorem pay_apply (x0 : FVec Ideal S128x4096 .f32) (x1 : FVec Ideal S4096x4096 .bf16) (x2 : FVec Ideal S1x4096 .f32)
    (p : Fin 128) (o : Fin 4096) :
    Gen.k0_pay1 (F := Ideal) x0 x1 x2 (ix2 p o)
      = fakeQuant (denseScaled (fun k : Fin 4096 => x0 (ix2 p k)) (fun (o k : Fin 4096) => x1 (ix2 k o))
          (fun o : Fin 4096 => x2 (ix2 (0 : Fin 1) o))) o := by
  have hrow : (fun k : Fin 4096 => dense (F := Ideal) x0 x1 x2 (ix2 p k))
      = denseScaled (fun k : Fin 4096 => x0 (ix2 p k)) (fun (o k : Fin 4096) => x1 (ix2 k o))
          (fun o : Fin 4096 => x2 (ix2 (0 : Fin 1) o)) := funext fun k => dense_apply x0 x1 x2 p k
  rw [pay_eq, ← hrow]
  exact congrArg₂ (· * ·) (codes_apply _ p o) (stepRow_apply _ p o)

end Cert.KernelIdeal.Body

end
-- ==== Proof.KernelTiles.lean ====
/-
  From the tiles the grid points write back to the whole [8192, 4096] array.

  Grid point t stages rows 128·t … 128·t + 127 of the [8192, 4096] activations, the whole [4096, 4096] weight array and
  the one bias row, and writes back rows 128·t … 128·t + 127 of the result. Entry (p, o) of the tile it writes is the
  fake quantization of the scaled dense layer of row p of its activation tile, which is row 128·t + p of the
  activations; so every written tile is the restriction of ONE function of the three staged arrays, `rows`, and the 64
  tiles cover the result array: the array ends holding `rows`.
-/
import proofs.«107071_j61598420959615_2_alg».proof.Proof.Gen.KernelIdeal.Frame
import proofs.«107071_j61598420959615_2_alg».proof.Proof.KernelBody
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Tiles

open Cert.KernelIdeal Cert.KernelIdeal.Gen Idealize.ShloMosaic.ValueIdx Cert.RowQuant

variable (m : (ℓ : Loc nD τ sig) → Buf (Elt Ideal) ℓ) (ρ : Dev nD → PrngReg)

theorem hz : (![0, 0] : Fin 2 → Nat) = fun _ => 0 := funext fun a => by fin_cases a <;> rfl

/-- Row `i 0` of the result, at column `i 1`: the fake quantization of the scaled dense layer of row `i 0` of the
    activations `X`, with the weights read transposed (`Wt (k, o)`) and the bias from the one row of `B`. -/
def rows (X : FVec Ideal S8192x4096 .f32) (Wt : FVec Ideal S4096x4096 .bf16) (B : FVec Ideal S1x4096 .f32) :
    FVec Ideal S8192x4096 .f32 := fun i =>
  fakeQuant (denseScaled (fun k : Fin 4096 => X (ix2 (⟨(i 0).val, (i 0).isLt⟩ : Fin 8192) k))
      (fun (o k : Fin 4096) => Wt (ix2 k o)) (fun o : Fin 4096 => B (ix2 (0 : Fin 1) o)))
    (⟨(i 1).val, (i 1).isLt⟩ : Fin 4096)

/-- An entry of a stored tile is the entry of `rows` it lands on, when the tile's inputs are the arrays' matching rows. -/
theorem tile_entry (X : FVec Ideal S8192x4096 .f32) (Wt : FVec Ideal S4096x4096 .bf16) (B : FVec Ideal S1x4096 .f32)
    (x0 : FVec Ideal S128x4096 .f32) (x1 : FVec Ideal S4096x4096 .bf16) (x2 : FVec Ideal S1x4096 .f32)
    (p : Fin 128) (o : Fin 4096) (i : S8192x4096.Idx) (hi : (i 1).val = o.val)
    (h0 : ∀ k : Fin 4096, x0 (ix2 p k) = X (ix2 (⟨(i 0).val, (i 0).isLt⟩ : Fin 8192) k))
    (h1 : ∀ k n : Fin 4096, x1 (ix2 k n) = Wt (ix2 k n))
    (h2 : ∀ n : Fin 4096, x2 (ix2 (0 : Fin 1) n) = B (ix2 (0 : Fin 1) n)) :
    k0_pay1 (F := Ideal) x0 x1 x2 (ix2 p o) = rows X Wt B i := by
  have e0 : (fun k : Fin 4096 => x0 (ix2 p k)) = fun k : Fin 4096 => X (ix2 (⟨(i 0).val, (i 0).isLt⟩ : Fin 8192) k) := funext h0
  have e1 : (fun (o k : Fin 4096) => x1 (ix2 k o)) = fun (o k : Fin 4096) => Wt (ix2 k o) :=
    funext fun o => funext fun k => h1 k o
  have e2 : (fun o : Fin 4096 => x2 (ix2 (0 : Fin 1) o)) = fun o : Fin 4096 => B (ix2 (0 : Fin 1) o) := funext h2
  have eo : o = (⟨(i 1).val, (i 1).isLt⟩ : Fin 4096) := Fin.ext hi.symm
  rw [Cert.KernelIdeal.Body.pay_apply, e0, e1, e2]
  unfold rows
  exact congrArg _ eo

/-- The printed index maps over the grid: the activation and result windows move with the point along the rows; the
    weight and bias windows stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `rows` of the three staged arrays as the region finds them. -/
theorem flushed_eq (c : Dev nD) (t : Fin cfg0.N) :
    (dats (F := Ideal) m 0 c).flushed 3 t
      = ((cfg0.win 3).blk t).view.read (Elt Ideal) (rows (V m c main_v0) (V m c main_v2) (V m c main_v3)) := by
  show (cfg0.win 3).cut (grid0.coords t) ((dats m 0 c).after 3 t) = _
  rw [after0_3]
  unfold out0_3
  rw [View.canon_unit_zero hz]
  simp only [View.ld_unit_zero (S := S128x4096) hz, View.ld_unit_zero (S := S4096x4096) hz, View.ld_unit_zero (S := S1x4096) hz]
  obtain ⟨e00, e01, e10, e11, e20, e21, e30, e31⟩ := idx_facts t
  refine funext fun (j : S128x4096.Idx) => ?_
  obtain ⟨p, o, rfl⟩ : ∃ (p : Fin 128) (o : Fin 4096), j = ix2 p o := ⟨j 0, j 1, eq_ix2 j⟩
  refine tile_entry (V m c main_v0) (V m c main_v2) (V m c main_v3) (iblk m c 0 t) (iblk m c 1 t) (iblk m c 2 t) p o
    (((cfg0.win 3).blk t).view.emb (ix2 p o)) ?_ ?_ ?_ ?_
  · show win0_3.index t (1 : Fin 2) * 4096 + 1 * o.val = o.val
    rw [e31]; omega
  · intro k
    show V m c main_v0 (((cfg0.win 0).blk t).view.emb (ix2 p k)) = V m c main_v0 _
    refine congrArg (V m c main_v0) (funext fun a => Fin.ext ?_)
    match a with
    | ⟨0, _⟩ =>
      show win0_0.index t (0 : Fin 2) * 128 + 1 * p.val = win0_3.index t (0 : Fin 2) * 128 + 1 * p.val
      rw [e00, e30]
    | ⟨1, _⟩ =>
      show win0_0.index t (1 : Fin 2) * 4096 + 1 * k.val = k.val
      rw [e01]; omega
  · intro k n
    show V m c main_v2 (((cfg0.win 1).blk t).view.emb (ix2 k n)) = V m c main_v2 _
    refine congrArg (V m c main_v2) (funext fun a => Fin.ext ?_)
    match a with
    | ⟨0, _⟩ =>
      show win0_1.index t (0 : Fin 2) * 4096 + 1 * k.val = k.val
      rw [e10]; omega
    | ⟨1, _⟩ =>
      show win0_1.index t (1 : Fin 2) * 4096 + 1 * n.val = n.val
      rw [e11]; omega
  · intro n
    show V m c main_v3 (((cfg0.win 2).blk t).view.emb (ix2 (0 : Fin 1) n)) = V m c main_v3 _
    refine congrArg (V m c main_v3) (funext fun a => Fin.ext ?_)
    match a with
    | ⟨0, _⟩ =>
      show win0_2.index t (0 : Fin 2) * 1 + 1 * (0 : Fin 1).val = (0 : Fin 1).val
      rw [e20]; rfl
    | ⟨1, _⟩ =>
      show win0_2.index t (1 : Fin 2) * 4096 + 1 * n.val = n.val
      rw [e21]; omega

/-- An index of the result array is in point `t`'s block iff each coordinate is in the block's range on its axis. -/
theorem mem_blk (t : Fin cfg0.N) (i : S8192x4096.Idx) :
    i ∈ ((cfg0.win 3).blk t).view.set ↔ ∀ a : Fin 2, win0_3.index t a * S128x4096.size a ≤ (i a).val
      ∧ (i a).val < win0_3.index t a * S128x4096.size a + S128x4096.size a := by
  show i ∈ ((View.whole main_v4).slice (win0_3.rect t)).set ↔ _
  rw [View.set_slice_whole, Rect.mem_set_unit]
  exact Iff.rfl

/-- Every index of the result array is in the block of the point numbered by its row over 128. -/
theorem covered (i : S8192x4096.Idx) :
    ∃ t : Fin cfg0.N, (cfg0.win 3).flush t = true ∧ i ∈ ((cfg0.win 3).blk t).view.set := by
  have hN : cfg0.N = 64 := N_0
  have hi0 : (i 0).val < 8192 := (i 0).isLt
  have hi1 : (i 1).val < 4096 := (i 1).isLt
  have ht : (i 0).val / 128 < cfg0.N := by rw [hN]; omega
  obtain ⟨-, -, -, -, -, -, e30, e31⟩ := idx_facts ⟨(i 0).val / 128, ht⟩
  refine ⟨⟨(i 0).val / 128, ht⟩, flush0_3 _, ?_⟩
  rw [mem_blk]
  intro a
  match a with
  | ⟨0, _⟩ =>
    show win0_3.index ⟨(i 0).val / 128, ht⟩ (0 : Fin 2) * 128 ≤ (i 0).val
      ∧ (i 0).val < win0_3.index ⟨(i 0).val / 128, ht⟩ (0 : Fin 2) * 128 + 128
    rw [e30]
    show (i 0).val / 128 * 128 ≤ (i 0).val ∧ (i 0).val < (i 0).val / 128 * 128 + 128
    omega
  | ⟨1, _⟩ =>
    show win0_3.index ⟨(i 0).val / 128, ht⟩ (1 : Fin 2) * 4096 ≤ (i 1).val
      ∧ (i 1).val < win0_3.index ⟨(i 0).val / 128, ht⟩ (1 : Fin 2) * 4096 + 4096
    rw [e31]; omega

/-- The result array after the run is `rows` of the three staged arrays. -/
theorem array_eq (c : Dev nD) :
    (dats (F := Ideal) m 0 c).arrAt 3 cfg0.N = rows (V m c main_v0) (V m c main_v2) (V m c main_v3) :=
  (dats m 0 c).arrAt_eq_of_cover 3 _ (fun t _ => flushed_eq m c t) covered

end Cert.KernelIdeal.Tiles

end
-- ==== Proof.KernelResult.lean ====
/-
  The kernel program's result array, entry by entry.

  Before the region the program reshapes the [4, 2048, 4096] activations to [8192, 4096] (entry (a, s, k) becomes row
  2048·a + s), transposes the [4096, 4096] weights (entry (k, o) of the staged array is W (o, k); the change of float
  format that follows is the identity on the extended reals) and makes the bias a [1, 4096] row. After the region it
  reshapes the [8192, 4096] result back to [4, 2048, 4096]. So entry (a, s, o) of the program's result is the fake
  quantization, at o, of the scaled dense layer of the activation row (a, s, ·) against the rows W (o, ·) and the bias.
-/
import proofs.«107071_j61598420959615_2_alg».proof.Proof.Gen.KernelIdeal.Frame
import proofs.«107071_j61598420959615_2_alg».proof.Proof.KernelTiles
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx Cert.RowQuant Cert.KernelIdeal.Tiles

variable (m : (ℓ : Loc nD τ sig) → Buf (Elt Ideal) ℓ) (ρ : Dev nD → PrngReg)

/-! ## The three staged arrays as the region finds them -/

/-- The activations, reshaped to rows. -/
theorem staged_x (c : Dev nD) :
    (V m c main_v0 : S8192x4096.Idx → EReal)
      = shapeCast S8192x4096 (m ((c : Thread nD τ).loc main_arg0)) shapeCasts_S4x2048x4096_S8192x4096 := by
  show StableHlo.after hostOps0 (fun b => m (c, b)) (Proc.devRef .tc main_v0) = _
  after_results
  rfl

/-- The weights, transposed (and their float format changed, which is the identity here). -/
theorem staged_w (c : Dev nD) :
    (V m c main_v2 : S4096x4096.Idx → EReal)
      = (truncf (F := Ideal) .bf16
          (transpose S4096x4096 [1, 0] (m ((c : Thread nD τ).loc main_arg1)) transposes_S4096x4096_S4096x4096_1_0)
          bitsLt_bf16_f32 : S4096x4096.Idx → EReal) := by
  show StableHlo.after hostOps0 (fun b => m (c, b)) (Proc.devRef .tc main_v2) = _
  after_results

/-- The bias, as one row. -/
theorem staged_b (c : Dev nD) :
    (V m c main_v3 : S1x4096.Idx → EReal)
      = shapeCast S1x4096 (m ((c : Thread nD τ).loc main_arg2)) shapeCasts_S4096_S1x4096 := by
  show StableHlo.after hostOps0 (fun b => m (c, b)) (Proc.devRef .tc main_v3) = _
  after_results
  rfl

/-- Row 2048·a + s of the reshaped activations is the activation row (a, s, ·). -/
theorem staged_x_apply (c : Dev nD) (a : Fin 4) (s : Fin 2048) (k : Fin 4096) (R : Fin 8192) (hR : R.val = a.val * 2048 + s.val) :
    (V m c main_v0 : S8192x4096.Idx → EReal) (ix2 R k) = m ((c : Thread nD τ).loc main_arg0) (ix3 a s k) := by
  rw [staged_x]
  exact shapeCast_apply _ shapeCasts_S4x2048x4096_S8192x4096 (ix2 R k) (ix3 a s k) (by
    rw [Shape.rowMajor_val_two, Shape.rowMajor_val_three]
    show (a.val * 2048 + s.val) * 4096 + k.val = R.val * 4096 + k.val
    rw [hR])

/-- Entry (k, o) of the staged weights is W (o, k). -/
theorem staged_w_apply (c : Dev nD) (k o : Fin 4096) :
    (V m c main_v2 : S4096x4096.Idx → EReal) (ix2 k o) = m ((c : Thread nD τ).loc main_arg1) (ix2 o k) := by
  rw [staged_w]
  exact transpose_ix2_apply (m ((c : Thread nD τ).loc main_arg1)) transposes_S4096x4096_S4096x4096_1_0 k o

/-- Entry (0, o) of the bias row is b o. -/
theorem staged_b_apply (c : Dev nD) (o : Fin 4096) :
    (V m c main_v3 : S1x4096.Idx → EReal) (ix2 (0 : Fin 1) o) = m ((c : Thread nD τ).loc main_arg2) (ix1 o) := by
  rw [staged_b]
  exact shapeCast_a_1a_apply (m ((c : Thread nD τ).loc main_arg2)) shapeCasts_S4096_S1x4096 (0 : Fin 1) o

/-! ## The result after the host tail -/

/-- The program's result is the region's [8192, 4096] array reshaped to [4, 2048, 4096]. -/
theorem tail_eq (c : Dev nD) :
    Pipeline.afterTail₀ cfgs (dats (F := Ideal) m) 0 (V0 m) [hostOps1] c main_v5
      = shapeCast S4x2048x4096 (rows (V m c main_v0) (V m c main_v2) (V m c main_v3)) shapeCasts_S8192x4096_S4x2048x4096 := by
  have hw : Pipeline.withArrays (cfgs 0).spec c (V0 m c) (fun w => (dats (F := Ideal) m 0 c).arrAt w (cfgs 0).N)
        (Proc.devRef .tc main_v4) = rows (V m c main_v0) (V m c main_v2) (V m c main_v3) :=
    (Pipeline.withArrays_arr spec0 launch0.win.arr_inj c _ _ 3).trans (array_eq m c)
  unfold Pipeline.afterTail₀
  show StableHlo.after hostOps1 _ (Proc.devRef .tc main_v5) = _
  after_results
  rw [hw]
  rfl

/-- Entry (a, s, o) of the program's result. -/
theorem result_apply (c : Dev nD) (a : Fin 4) (s : Fin 2048) (o : Fin 4096) :
    Pipeline.afterTail₀ cfgs (dats (F := Ideal) m) 0 (V0 m) [hostOps1] c main_v5 (ix3 a s o)
      = fakeQuant (denseScaled (fun k : Fin 4096 => m ((c : Thread nD τ).loc main_arg0) (ix3 a s k))
          (fun (o k : Fin 4096) => m ((c : Thread nD τ).loc main_arg1) (ix2 o k))
          (fun o : Fin 4096 => m ((c : Thread nD τ).loc main_arg2) (ix1 o))) o := by
  have hlt : a.val * 2048 + s.val < 8192 := by have := a.isLt; have := s.isLt; omega
  have e0 : (fun k : Fin 4096 => (V m c main_v0 : S8192x4096.Idx → EReal) (ix2 (⟨a.val * 2048 + s.val, hlt⟩ : Fin 8192) k))
      = fun k : Fin 4096 => m ((c : Thread nD τ).loc main_arg0) (ix3 a s k) :=
    funext fun k => staged_x_apply m c a s k ⟨a.val * 2048 + s.val, hlt⟩ rfl
  have e1 : (fun (o k : Fin 4096) => (V m c main_v2 : S4096x4096.Idx → EReal) (ix2 k o))
      = fun (o k : Fin 4096) => m ((c : Thread nD τ).loc main_arg1) (ix2 o k) :=
    funext fun o => funext fun k => staged_w_apply m c k o
  have e2 : (fun o : Fin 4096 => (V m c main_v3 : S1x4096.Idx → EReal) (ix2 (0 : Fin 1) o))
      = fun o : Fin 4096 => m ((c : Thread nD τ).loc main_arg2) (ix1 o) :=
    funext fun o => staged_b_apply m c o
  rw [tail_eq]
  refine (shapeCast_apply _ shapeCasts_S8192x4096_S4x2048x4096 (ix3 a s o)
    (ix2 (⟨a.val * 2048 + s.val, hlt⟩ : Fin 8192) o) (by rw [Shape.rowMajor_val_two, Shape.rowMajor_val_three]; rfl)).trans ?_
  show fakeQuant (denseScaled (fun k : Fin 4096 => (V m c main_v0 : S8192x4096.Idx → EReal) (ix2 (⟨a.val * 2048 + s.val, hlt⟩ : Fin 8192) k))
      (fun (o k : Fin 4096) => (V m c main_v2 : S4096x4096.Idx → EReal) (ix2 k o))
      (fun o : Fin 4096 => (V m c main_v3 : S1x4096.Idx → EReal) (ix2 (0 : Fin 1) o))) o = _
  rw [e0, e1, e2]

end Cert.KernelIdeal.Result

end
-- ==== Proof.ReferenceRun.lean ====
/-
  The reference program's run, read back stage by stage.

  The reference is a straight line of 36 host operations. Three of its intermediate arrays are read more than once: the
  input's column of quantization steps (by the quotient and by the product that follows), the dense layer's result (by
  the row maximum and by the final quotient), and the result's column of steps. Reading the whole line as one term of
  the arguments repeats each of those sub-terms wherever it is read. Here the line is cut after each of the three, each
  piece is read as a function of the few arrays it starts from, and the four pieces are composed: the result buffer ends
  holding the last stage of the read-at-an-index module applied to the three arguments, and the arguments end unchanged.
-/
import proofs.«107071_j61598420959615_2_alg».proof.Proof.Gen.ReferenceIdeal
import proofs.«107071_j61598420959615_2_alg».proof.Proof.ReferenceRead
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-! ## The four pieces of @main

The operations of the two functions @main calls (the clip and the rounding) stand in their calls' places, spelt with the
plain builders at the calls' buffers. -/

/-- From the input to its column of quantization steps (`main_v5`). -/
abbrev ops1 : List (HloOp τ sig (Elt F)) :=
  [ unary main_arg0 main_v0 (Host.absf : (⟨S4x2048x4096, .f32⟩ : BufTy).Contents (Elt F) → (⟨S4x2048x4096, .f32⟩ : BufTy).Contents (Elt F)),
    nullary main_cst (constant S_ .f32 0xFF800000#32),
    binary main_v0 main_cst main_v1 ((fun x v => Host.reduce FloatOps.maximumf x v reducesTo_S4x2048x4096_S4x2048_d2 h_S_) : (⟨S4x2048x4096, .f32⟩ : BufTy).Contents (Elt F) → (⟨S_, .f32⟩ : BufTy).Contents (Elt F) → (⟨S4x2048, .f32⟩ : BufTy).Contents (Elt F)),
    unary main_v1 main_v2 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_0 (constant S_ .f32 0x3727C5AC#32),
    unary main_cst_0 main_call0_v0 ((id) : (⟨S_, .f32⟩ : BufTy).Contents (Elt F) → (⟨S_, .f32⟩ : BufTy).Contents (Elt F)),
    unary main_call0_v0 main_call0_v1 (((broadcastInDim S4x2048x1 ![] bcast_S_S4x2048x1)) : (⟨S_, .f32⟩ : BufTy).Contents (Elt F) → (⟨S4x2048x1, .f32⟩ : BufTy).Contents (Elt F)),
    binary main_call0_v1 main_v2 main_v3 ((maximumf) : (⟨S4x2048x1, .f32⟩ : BufTy).Contents (Elt F) → (⟨S4x2048x1, .f32⟩ : BufTy).Contents (Elt F) → (⟨S4x2048x1, .f32⟩ : BufTy).Contents (Elt F)),
    nullary main_cst_1 (constant S_ .f32 0x42FE0000#32),
    unary main_cst_1 main_v4 (broadcastInDim S4x2048x1 ![] bcast_S_S4x2048x1 : (⟨S_, .f32⟩ : BufTy).Contents (Elt F) → (⟨S4x2048x1, .f32⟩ : BufTy).Contents (Elt F)),
    binary main_v3 main_v4 main_v5 (Host.divf : (⟨S4x2048x1, .f32⟩ : BufTy).Contents (Elt F) → (⟨S4x2048x1, .f32⟩ : BufTy).Contents (Elt F) → (⟨S4x2048x1, .f32⟩ : BufTy).Contents (Elt F)) ]

/-- Quantize the input, the dense layer, the bias (`main_v14`). -/
abbrev ops2 : List (HloOp τ sig (Elt F)) :=
  [ unary main_v5 main_v6 (broadcastInDim S4x2048x4096 ![0, 1, 2] bcast_S4x2048x1_S4x2048x4096_0_1_2 : (⟨S4x2048x1, .f32⟩ : BufTy).Contents (Elt F) → (⟨S4x2048x4096, .f32⟩ : BufTy).Contents (Elt F)),
    binary main_arg0 main_v6 main_v7 (Host.divf : (⟨S4x2048x4096, .f32⟩ : BufTy).Contents (Elt F) → (⟨S4x2048x4096, .f32⟩ : BufTy).Contents (Elt F) → (⟨S4x2048x4096, .f32⟩ : BufTy).Contents (Elt F)),
    unary main_v7 main_v8 ((Host.roundeven) : (⟨S4x2048x4096, .f32⟩ : BufTy).Contents (Elt F) → (⟨S4x2048x4096, .f32⟩ : BufTy).Contents (Elt F)),
    unary main_v5 main_v9 (broadcastInDim S4x2048x4096 ![0, 1, 2] bcast_S4x2048x1_S4x2048x4096_0_1_2 : (⟨S4x2048x1, .f32⟩ : BufTy).Contents (Elt F) → (⟨S4x2048x4096, .f32⟩ : BufTy).Contents (Elt F)),
    binary main_v8 main_v9 main_v10 (mulf : (⟨S4x2048x4096, .f32⟩ : BufTy).Contents (Elt F) → (⟨S4x2048x4096, .f32⟩ : BufTy).Contents (Elt F) → (⟨S4x2048x4096, .f32⟩ : BufTy).Contents (Elt F)),
    binary main_v10 main_arg1 main_v11 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    unary main_arg2 main_v12 (broadcastInDim S1x1x4096 ![2] bcast_S4096_S1x1x4096_2 : (⟨S4096, .f32⟩ : BufTy).Contents (Elt F) → (⟨S1x1x4096, .f32⟩ : BufTy).Contents (Elt F)),
    unary main_v12 main_v13 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v11 main_v13 main_v14 (addf : (⟨S4x2048x4096, .f32⟩ : BufTy).Contents (Elt F) → (⟨S4x2048x4096, .f32⟩ : BufTy).Contents (Elt F) → (⟨S4x2048x4096, .f32⟩ : BufTy).Contents (Elt F)) ]

/-- From the dense layer's result to its column of quantization steps (`main_v20`). -/
abbrev ops3 : List (HloOp τ sig (Elt F)) :=
  [ unary main_v14 main_v15 (Host.absf : (⟨S4x2048x4096, .f32⟩ : BufTy).Contents (Elt F) → (⟨S4x2048x4096, .f32⟩ : BufTy).Contents (Elt F)),
    nullary main_cst_2 (constant S_ .f32 0xFF800000#32),
    binary main_v15 main_cst_2 main_v16 ((fun x v => Host.reduce FloatOps.maximumf x v reducesTo_S4x2048x4096_S4x2048_d2 h_S_) : (⟨S4x2048x4096, .f32⟩ : BufTy).Contents (Elt F) → (⟨S_, .f32⟩ : BufTy).Contents (Elt F) → (⟨S4x2048, .f32⟩ : BufTy).Contents (Elt F)),
    unary main_v16 main_v17 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_3 (constant S_ .f32 0x3727C5AC#32),
    unary main_cst_3 main_call2_v0 ((id) : (⟨S_, .f32⟩ : BufTy).Contents (Elt F) → (⟨S_, .f32⟩ : BufTy).Contents (Elt F)),
    unary main_call2_v0 main_call2_v1 (((broadcastInDim S4x2048x1 ![] bcast_S_S4x2048x1)) : (⟨S_, .f32⟩ : BufTy).Contents (Elt F) → (⟨S4x2048x1, .f32⟩ : BufTy).Contents (Elt F)),
    binary main_call2_v1 main_v17 main_v18 ((maximumf) : (⟨S4x2048x1, .f32⟩ : BufTy).Contents (Elt F) → (⟨S4x2048x1, .f32⟩ : BufTy).Contents (Elt F) → (⟨S4x2048x1, .f32⟩ : BufTy).Contents (Elt F)),
    nullary main_cst_4 (constant S_ .f32 0x42FE0000#32),
    unary main_cst_4 main_v19 (broadcastInDim S4x2048x1 ![] bcast_S_S4x2048x1 : (⟨S_, .f32⟩ : BufTy).Contents (Elt F) → (⟨S4x2048x1, .f32⟩ : BufTy).Contents (Elt F)),
    binary main_v18 main_v19 main_v20 (Host.divf : (⟨S4x2048x1, .f32⟩ : BufTy).Contents (Elt F) → (⟨S4x2048x1, .f32⟩ : BufTy).Contents (Elt F) → (⟨S4x2048x1, .f32⟩ : BufTy).Contents (Elt F)) ]

/-- Quantize the dense layer's result (`main_v25`). -/
abbrev ops4 : List (HloOp τ sig (Elt F)) :=
  [ unary main_v20 main_v21 (broadcastInDim S4x2048x4096 ![0, 1, 2] bcast_S4x2048x1_S4x2048x4096_0_1_2 : (⟨S4x2048x1, .f32⟩ : BufTy).Contents (Elt F) → (⟨S4x2048x4096, .f32⟩ : BufTy).Contents (Elt F)),
    binary main_v14 main_v21 main_v22 (Host.divf : (⟨S4x2048x4096, .f32⟩ : BufTy).Contents (Elt F) → (⟨S4x2048x4096, .f32⟩ : BufTy).Contents (Elt F) → (⟨S4x2048x4096, .f32⟩ : BufTy).Contents (Elt F)),
    unary main_v22 main_v23 ((Host.roundeven) : (⟨S4x2048x4096, .f32⟩ : BufTy).Contents (Elt F) → (⟨S4x2048x4096, .f32⟩ : BufTy).Contents (Elt F)),
    unary main_v20 main_v24 (broadcastInDim S4x2048x4096 ![0, 1, 2] bcast_S4x2048x1_S4x2048x4096_0_1_2 : (⟨S4x2048x1, .f32⟩ : BufTy).Contents (Elt F) → (⟨S4x2048x4096, .f32⟩ : BufTy).Contents (Elt F)),
    binary main_v23 main_v24 main_v25 (mulf : (⟨S4x2048x4096, .f32⟩ : BufTy).Contents (Elt F) → (⟨S4x2048x4096, .f32⟩ : BufTy).Contents (Elt F) → (⟨S4x2048x4096, .f32⟩ : BufTy).Contents (Elt F)) ]

/-- @main's 36 operations, in order. -/
abbrev ops : List (HloOp τ sig (Elt F)) :=
  [ unary main_arg0 main_v0 (Host.absf : (⟨S4x2048x4096, .f32⟩ : BufTy).Contents (Elt F) → (⟨S4x2048x4096, .f32⟩ : BufTy).Contents (Elt F)),
    nullary main_cst (constant S_ .f32 0xFF800000#32),
    binary main_v0 main_cst main_v1 ((fun x v => Host.reduce FloatOps.maximumf x v reducesTo_S4x2048x4096_S4x2048_d2 h_S_) : (⟨S4x2048x4096, .f32⟩ : BufTy).Contents (Elt F) → (⟨S_, .f32⟩ : BufTy).Contents (Elt F) → (⟨S4x2048, .f32⟩ : BufTy).Contents (Elt F)),
    unary main_v1 main_v2 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_0 (constant S_ .f32 0x3727C5AC#32),
    unary main_cst_0 main_call0_v0 ((id) : (⟨S_, .f32⟩ : BufTy).Contents (Elt F) → (⟨S_, .f32⟩ : BufTy).Contents (Elt F)),
    unary main_call0_v0 main_call0_v1 (((broadcastInDim S4x2048x1 ![] bcast_S_S4x2048x1)) : (⟨S_, .f32⟩ : BufTy).Contents (Elt F) → (⟨S4x2048x1, .f32⟩ : BufTy).Contents (Elt F)),
    binary main_call0_v1 main_v2 main_v3 ((maximumf) : (⟨S4x2048x1, .f32⟩ : BufTy).Contents (Elt F) → (⟨S4x2048x1, .f32⟩ : BufTy).Contents (Elt F) → (⟨S4x2048x1, .f32⟩ : BufTy).Contents (Elt F)),
    nullary main_cst_1 (constant S_ .f32 0x42FE0000#32),
    unary main_cst_1 main_v4 (broadcastInDim S4x2048x1 ![] bcast_S_S4x2048x1 : (⟨S_, .f32⟩ : BufTy).Contents (Elt F) → (⟨S4x2048x1, .f32⟩ : BufTy).Contents (Elt F)),
    binary main_v3 main_v4 main_v5 (Host.divf : (⟨S4x2048x1, .f32⟩ : BufTy).Contents (Elt F) → (⟨S4x2048x1, .f32⟩ : BufTy).Contents (Elt F) → (⟨S4x2048x1, .f32⟩ : BufTy).Contents (Elt F)),
    unary main_v5 main_v6 (broadcastInDim S4x2048x4096 ![0, 1, 2] bcast_S4x2048x1_S4x2048x4096_0_1_2 : (⟨S4x2048x1, .f32⟩ : BufTy).Contents (Elt F) → (⟨S4x2048x4096, .f32⟩ : BufTy).Contents (Elt F)),
    binary main_arg0 main_v6 main_v7 (Host.divf : (⟨S4x2048x4096, .f32⟩ : BufTy).Contents (Elt F) → (⟨S4x2048x4096, .f32⟩ : BufTy).Contents (Elt F) → (⟨S4x2048x4096, .f32⟩ : BufTy).Contents (Elt F)),
    unary main_v7 main_v8 ((Host.roundeven) : (⟨S4x2048x4096, .f32⟩ : BufTy).Contents (Elt F) → (⟨S4x2048x4096, .f32⟩ : BufTy).Contents (Elt F)),
    unary main_v5 main_v9 (broadcastInDim S4x2048x4096 ![0, 1, 2] bcast_S4x2048x1_S4x2048x4096_0_1_2 : (⟨S4x2048x1, .f32⟩ : BufTy).Contents (Elt F) → (⟨S4x2048x4096, .f32⟩ : BufTy).Contents (Elt F)),
    binary main_v8 main_v9 main_v10 (mulf : (⟨S4x2048x4096, .f32⟩ : BufTy).Contents (Elt F) → (⟨S4x2048x4096, .f32⟩ : BufTy).Contents (Elt F) → (⟨S4x2048x4096, .f32⟩ : BufTy).Contents (Elt F)),
    binary main_v10 main_arg1 main_v11 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    unary main_arg2 main_v12 (broadcastInDim S1x1x4096 ![2] bcast_S4096_S1x1x4096_2 : (⟨S4096, .f32⟩ : BufTy).Contents (Elt F) → (⟨S1x1x4096, .f32⟩ : BufTy).Contents (Elt F)),
    unary main_v12 main_v13 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v11 main_v13 main_v14 (addf : (⟨S4x2048x4096, .f32⟩ : BufTy).Contents (Elt F) → (⟨S4x2048x4096, .f32⟩ : BufTy).Contents (Elt F) → (⟨S4x2048x4096, .f32⟩ : BufTy).Contents (Elt F)),
    unary main_v14 main_v15 (Host.absf : (⟨S4x2048x4096, .f32⟩ : BufTy).Contents (Elt F) → (⟨S4x2048x4096, .f32⟩ : BufTy).Contents (Elt F)),
    nullary main_cst_2 (constant S_ .f32 0xFF800000#32),
    binary main_v15 main_cst_2 main_v16 ((fun x v => Host.reduce FloatOps.maximumf x v reducesTo_S4x2048x4096_S4x2048_d2 h_S_) : (⟨S4x2048x4096, .f32⟩ : BufTy).Contents (Elt F) → (⟨S_, .f32⟩ : BufTy).Contents (Elt F) → (⟨S4x2048, .f32⟩ : BufTy).Contents (Elt F)),
    unary main_v16 main_v17 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_3 (constant S_ .f32 0x3727C5AC#32),
    unary main_cst_3 main_call2_v0 ((id) : (⟨S_, .f32⟩ : BufTy).Contents (Elt F) → (⟨S_, .f32⟩ : BufTy).Contents (Elt F)),
    unary main_call2_v0 main_call2_v1 (((broadcastInDim S4x2048x1 ![] bcast_S_S4x2048x1)) : (⟨S_, .f32⟩ : BufTy).Contents (Elt F) → (⟨S4x2048x1, .f32⟩ : BufTy).Contents (Elt F)),
    binary main_call2_v1 main_v17 main_v18 ((maximumf) : (⟨S4x2048x1, .f32⟩ : BufTy).Contents (Elt F) → (⟨S4x2048x1, .f32⟩ : BufTy).Contents (Elt F) → (⟨S4x2048x1, .f32⟩ : BufTy).Contents (Elt F)),
    nullary main_cst_4 (constant S_ .f32 0x42FE0000#32),
    unary main_cst_4 main_v19 (broadcastInDim S4x2048x1 ![] bcast_S_S4x2048x1 : (⟨S_, .f32⟩ : BufTy).Contents (Elt F) → (⟨S4x2048x1, .f32⟩ : BufTy).Contents (Elt F)),
    binary main_v18 main_v19 main_v20 (Host.divf : (⟨S4x2048x1, .f32⟩ : BufTy).Contents (Elt F) → (⟨S4x2048x1, .f32⟩ : BufTy).Contents (Elt F) → (⟨S4x2048x1, .f32⟩ : BufTy).Contents (Elt F)),
    unary main_v20 main_v21 (broadcastInDim S4x2048x4096 ![0, 1, 2] bcast_S4x2048x1_S4x2048x4096_0_1_2 : (⟨S4x2048x1, .f32⟩ : BufTy).Contents (Elt F) → (⟨S4x2048x4096, .f32⟩ : BufTy).Contents (Elt F)),
    binary main_v14 main_v21 main_v22 (Host.divf : (⟨S4x2048x4096, .f32⟩ : BufTy).Contents (Elt F) → (⟨S4x2048x4096, .f32⟩ : BufTy).Contents (Elt F) → (⟨S4x2048x4096, .f32⟩ : BufTy).Contents (Elt F)),
    unary main_v22 main_v23 ((Host.roundeven) : (⟨S4x2048x4096, .f32⟩ : BufTy).Contents (Elt F) → (⟨S4x2048x4096, .f32⟩ : BufTy).Contents (Elt F)),
    unary main_v20 main_v24 (broadcastInDim S4x2048x4096 ![0, 1, 2] bcast_S4x2048x1_S4x2048x4096_0_1_2 : (⟨S4x2048x1, .f32⟩ : BufTy).Contents (Elt F) → (⟨S4x2048x4096, .f32⟩ : BufTy).Contents (Elt F)),
    binary main_v23 main_v24 main_v25 (mulf : (⟨S4x2048x4096, .f32⟩ : BufTy).Contents (Elt F) → (⟨S4x2048x4096, .f32⟩ : BufTy).Contents (Elt F) → (⟨S4x2048x4096, .f32⟩ : BufTy).Contents (Elt F)) ]

theorem ops_split : (ops : List (HloOp τ sig (Elt F))) = ops1 ++ (ops2 ++ (ops3 ++ ops4)) := rfl

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., nullary_bufs_sub .., binary_bufs_sub .., unary_bufs_sub .., nullary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., binary_bufs_sub .., unary_bufs_sub .., unary_bufs_sub .., binary_bufs_sub .., unary_bufs_sub .., nullary_bufs_sub .., binary_bufs_sub .., unary_bufs_sub .., nullary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

/-! ## Each piece as a function of the arrays it starts from -/

/-- A [4, 2048, 4096] array's column of quantization steps: the largest magnitude along the last axis, floored at ε, over 127. -/
def steps (y : (⟨S4x2048x4096, .f32⟩ : BufTy).Contents (Elt F)) : (⟨S4x2048x1, .f32⟩ : BufTy).Contents (Elt F) :=
  Host.divf (maximumf (broadcastInDim S4x2048x1 ![] bcast_S_S4x2048x1 (id (constant S_ .f32 0x3727C5AC#32)))
      (broadcastInDim S4x2048x1 ![0, 1] bcast_S4x2048_S4x2048x1_0_1
        (Host.reduce FloatOps.maximumf (Host.absf y) (constant S_ .f32 0xFF800000#32) reducesTo_S4x2048x4096_S4x2048_d2 h_S_)))
    (broadcastInDim S4x2048x1 ![] bcast_S_S4x2048x1 (constant S_ .f32 0x42FE0000#32))

/-- An array fake-quantized with a given column of steps. -/
def requant (y : (⟨S4x2048x4096, .f32⟩ : BufTy).Contents (Elt F)) (s : (⟨S4x2048x1, .f32⟩ : BufTy).Contents (Elt F)) : (⟨S4x2048x4096, .f32⟩ : BufTy).Contents (Elt F) :=
  mulf (Host.roundeven (Host.divf y (broadcastInDim S4x2048x4096 ![0, 1, 2] bcast_S4x2048x1_S4x2048x4096_0_1_2 s)))
    (broadcastInDim S4x2048x4096 ![0, 1, 2] bcast_S4x2048x1_S4x2048x4096_0_1_2 s)

/-- The dense layer on the input fake-quantized with a given column of steps. -/
def dense (x0 : (⟨S4x2048x4096, .f32⟩ : BufTy).Contents (Elt F)) (x1 : (⟨S4096x4096, .f32⟩ : BufTy).Contents (Elt F)) (x2 : (⟨S4096, .f32⟩ : BufTy).Contents (Elt F)) (s : (⟨S4x2048x1, .f32⟩ : BufTy).Contents (Elt F)) : (⟨S4x2048x4096, .f32⟩ : BufTy).Contents (Elt F) :=
  addf (Host.dotGeneral dot_S4x2048x4096_S4096x4096_S4x2048x4096_2_1_01_0_n_n none (requant x0 s) x1)
    (broadcastInDim S4x2048x4096 ![0, 1, 2] bcast_S1x1x4096_S4x2048x4096_0_1_2 (broadcastInDim S1x1x4096 ![2] bcast_S4096_S1x1x4096_2 x2))

theorem step1 (V : Valuation τ sig (Elt F)) :
    after (ops1 (F := F)) V (Proc.devRef .tc main_v5) = steps (V (Proc.devRef .tc main_arg0)) := by
  after_results_simp <;> rfl
theorem keep1_main_arg0 (V : Valuation τ sig (Elt F)) : after (ops1 (F := F)) V (Proc.devRef .tc main_arg0) = V (Proc.devRef .tc main_arg0) := by
  after_results_simp <;> rfl
theorem keep1_main_arg1 (V : Valuation τ sig (Elt F)) : after (ops1 (F := F)) V (Proc.devRef .tc main_arg1) = V (Proc.devRef .tc main_arg1) := by
  after_results_simp <;> rfl
theorem keep1_main_arg2 (V : Valuation τ sig (Elt F)) : after (ops1 (F := F)) V (Proc.devRef .tc main_arg2) = V (Proc.devRef .tc main_arg2) := by
  after_results_simp <;> rfl

theorem step2 (V : Valuation τ sig (Elt F)) :
    after (ops2 (F := F)) V (Proc.devRef .tc main_v14)
      = dense (V (Proc.devRef .tc main_arg0)) (V (Proc.devRef .tc main_arg1)) (V (Proc.devRef .tc main_arg2)) (V (Proc.devRef .tc main_v5)) := by
  after_results_simp <;> rfl
theorem keep2_main_arg0 (V : Valuation τ sig (Elt F)) : after (ops2 (F := F)) V (Proc.devRef .tc main_arg0) = V (Proc.devRef .tc main_arg0) := by
  after_results_simp <;> rfl
theorem keep2_main_arg1 (V : Valuation τ sig (Elt F)) : after (ops2 (F := F)) V (Proc.devRef .tc main_arg1) = V (Proc.devRef .tc main_arg1) := by
  after_results_simp <;> rfl
theorem keep2_main_arg2 (V : Valuation τ sig (Elt F)) : after (ops2 (F := F)) V (Proc.devRef .tc main_arg2) = V (Proc.devRef .tc main_arg2) := by
  after_results_simp <;> rfl

theorem step3 (V : Valuation τ sig (Elt F)) :
    after (ops3 (F := F)) V (Proc.devRef .tc main_v20) = steps (V (Proc.devRef .tc main_v14)) := by
  after_results_simp <;> rfl
theorem keep3_main_v14 (V : Valuation τ sig (Elt F)) : after (ops3 (F := F)) V (Proc.devRef .tc main_v14) = V (Proc.devRef .tc main_v14) := by
  after_results_simp <;> rfl
theorem keep3_main_arg0 (V : Valuation τ sig (Elt F)) : after (ops3 (F := F)) V (Proc.devRef .tc main_arg0) = V (Proc.devRef .tc main_arg0) := by
  after_results_simp <;> rfl
theorem keep3_main_arg1 (V : Valuation τ sig (Elt F)) : after (ops3 (F := F)) V (Proc.devRef .tc main_arg1) = V (Proc.devRef .tc main_arg1) := by
  after_results_simp <;> rfl
theorem keep3_main_arg2 (V : Valuation τ sig (Elt F)) : after (ops3 (F := F)) V (Proc.devRef .tc main_arg2) = V (Proc.devRef .tc main_arg2) := by
  after_results_simp <;> rfl

theorem step4 (V : Valuation τ sig (Elt F)) :
    after (ops4 (F := F)) V (Proc.devRef .tc main_v25) = requant (V (Proc.devRef .tc main_v14)) (V (Proc.devRef .tc main_v20)) := by
  after_results_simp <;> rfl
theorem keep4_main_arg0 (V : Valuation τ sig (Elt F)) : after (ops4 (F := F)) V (Proc.devRef .tc main_arg0) = V (Proc.devRef .tc main_arg0) := by
  after_results_simp <;> rfl
theorem keep4_main_arg1 (V : Valuation τ sig (Elt F)) : after (ops4 (F := F)) V (Proc.devRef .tc main_arg1) = V (Proc.devRef .tc main_arg1) := by
  after_results_simp <;> rfl
theorem keep4_main_arg2 (V : Valuation τ sig (Elt F)) : after (ops4 (F := F)) V (Proc.devRef .tc main_arg2) = V (Proc.devRef .tc main_arg2) := by
  after_results_simp <;> rfl

/-! ## The pieces composed -/

/-- After the whole line the result buffer holds the last stage applied to the three arguments. -/
theorem result_eq (V : Valuation τ sig (Elt F)) :
    after (ops (F := F)) V (Proc.devRef .tc main_v25)
      = val_main_v25 (F := F) (V (Proc.devRef .tc main_arg0)) (V (Proc.devRef .tc main_arg1)) (V (Proc.devRef .tc main_arg2)) := by
  rw [ops_split, StableHlo.after_append, StableHlo.after_append, StableHlo.after_append,
    step4, keep3_main_v14, step3, step2, keep1_main_arg0, keep1_main_arg1, keep1_main_arg2, step1]
  rfl

theorem kept_arg0 (V : Valuation τ sig (Elt F)) : after (ops (F := F)) V (Proc.devRef .tc main_arg0) = V (Proc.devRef .tc main_arg0) := by
  rw [ops_split, StableHlo.after_append, StableHlo.after_append, StableHlo.after_append,
    keep4_main_arg0, keep3_main_arg0, keep2_main_arg0, keep1_main_arg0]
theorem kept_arg1 (V : Valuation τ sig (Elt F)) : after (ops (F := F)) V (Proc.devRef .tc main_arg1) = V (Proc.devRef .tc main_arg1) := by
  rw [ops_split, StableHlo.after_append, StableHlo.after_append, StableHlo.after_append,
    keep4_main_arg1, keep3_main_arg1, keep2_main_arg1, keep1_main_arg1]
theorem kept_arg2 (V : Valuation τ sig (Elt F)) : after (ops (F := F)) V (Proc.devRef .tc main_arg2) = V (Proc.devRef .tc main_arg2) := by
  rw [ops_split, StableHlo.after_append, StableHlo.after_append, StableHlo.after_append,
    keep4_main_arg2, keep3_main_arg2, keep2_main_arg2, keep1_main_arg2]

/-! ## The run -/

/-- On every device, for any float values, from any memory with zero counters: every weakly fair execution of @main
    terminates with the result at the last stage of the three arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25)
        = val_main_v25 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v25).trans (result_eq _),
      (h c main_arg0).trans (kept_arg0 _),
      (h c main_arg1).trans (kept_arg1 _),
      (h c main_arg2).trans (kept_arg2 _)⟩)
    (run_seq scopedRefs_eq scopedSems_eq defs main (fun _ => ops) main_eq (fun _ => ops_sub) m ρ)

end Cert.ReferenceIdeal.RefRun

end
-- ==== Proof.ReferenceValue.lean ====
/-
  The reference program's result, read at one entry.

  The reference computes, for every row (a, s) of the input x, the row's quantization step
  max(ε, max_k |x(a,s,k)|) / 127 (the maximum over k folded from −∞), replaces each entry by
  round(entry / step) · step (rounding to nearest, ties to even), applies the dense layer
  y(a,s,o) = ∑ k, q(a,s,k) · W(o,k) + b(o) to the result q, and then does the same per-row
  quantization once more to y.

  This module follows that computation one operation at a time at a fixed entry (a, s, o). A broadcast
  reads its operand at the entry with the broadcast axes set to 0, so the step of row (a, s) is read at
  (a, s, 0) wherever it is used; a maximum over the last axis at (a, s) is the fold over k of the entries
  (a, s, k); the contraction at (a, s, o) pairs the entries (a, s, k) of the left operand with the entries
  (o, k) of the right. Put together: the result at (a, s, o) is the fake quantization, at o, of the row
  o' ↦ dense layer of the fake-quantized row k ↦ x(a,s,k), with weights W(o',k) and bias b(o').
-/
import proofs.«107071_j61598420959615_2_alg».proof.Proof.ReferenceRead
import proofs.«107071_j61598420959615_2_alg».proof.Proof.RowQuant

noncomputable section

open scoped BigOperators

namespace Cert.ReferenceIdeal.RefValue

open Cert.ReferenceIdeal Cert.ReferenceIdeal.Gen Cert.ReferenceIdeal.ReadP Idealize.ShloMosaic Idealize.ShloMosaic.ValueIdx Cert.RowQuant

/-! ## Index equations

Each layout operation reads its operand at an index computed from the entry's coordinates; at an entry given by its
three coordinates these are again indices given by coordinates. -/

/-- The step broadcast along the last axis is read at (a, s, 0). -/
theorem idx6 (a : Fin 4) (s : Fin 2048) (o : Fin 4096) : idx_main_v6 (ix3 a s o) = ix3 a s (0 : Fin 1) :=
  funext fun d => Fin.ext (by match d with | ⟨0, _⟩ => rfl | ⟨1, _⟩ => rfl | ⟨2, _⟩ => rfl)
/-- Likewise for the second use of the first step. -/
theorem idx9 (a : Fin 4) (s : Fin 2048) (o : Fin 4096) : idx_main_v9 (ix3 a s o) = ix3 a s (0 : Fin 1) :=
  funext fun d => Fin.ext (by match d with | ⟨0, _⟩ => rfl | ⟨1, _⟩ => rfl | ⟨2, _⟩ => rfl)
/-- The second step broadcast along the last axis is read at (a, s, 0). -/
theorem idx21 (a : Fin 4) (s : Fin 2048) (o : Fin 4096) : idx_main_v21 (ix3 a s o) = ix3 a s (0 : Fin 1) :=
  funext fun d => Fin.ext (by match d with | ⟨0, _⟩ => rfl | ⟨1, _⟩ => rfl | ⟨2, _⟩ => rfl)
/-- Likewise for the second use of the second step. -/
theorem idx24 (a : Fin 4) (s : Fin 2048) (o : Fin 4096) : idx_main_v24 (ix3 a s o) = ix3 a s (0 : Fin 1) :=
  funext fun d => Fin.ext (by match d with | ⟨0, _⟩ => rfl | ⟨1, _⟩ => rfl | ⟨2, _⟩ => rfl)
/-- The row maximum given a trailing unit axis is read at (a, s). -/
theorem idx2 (a : Fin 4) (s : Fin 2048) : idx_main_v2 (ix3 a s (0 : Fin 1)) = ix2 a s :=
  funext fun d => Fin.ext (by match d with | ⟨0, _⟩ => rfl | ⟨1, _⟩ => rfl)
/-- Likewise for the second row maximum. -/
theorem idx17 (a : Fin 4) (s : Fin 2048) : idx_main_v17 (ix3 a s (0 : Fin 1)) = ix2 a s :=
  funext fun d => Fin.ext (by match d with | ⟨0, _⟩ => rfl | ⟨1, _⟩ => rfl)
/-- The bias broadcast to the result's shape is read at o. -/
theorem idx12_13 (a : Fin 4) (s : Fin 2048) (o : Fin 4096) : idx_main_v12 (idx_main_v13 (ix3 a s o)) = ix1 o :=
  funext fun d => Fin.ext (by match d with | ⟨0, _⟩ => rfl)
/-- The contraction's left operand at (a, s, o), summand k, is read at (a, s, k). -/
theorem lidx11 (a : Fin 4) (s : Fin 2048) (o k : Fin 4096) : lidx_main_v11 (ix3 a s o) k = ix3 a s k :=
  funext fun d => Fin.ext (by match d with | ⟨0, _⟩ => rfl | ⟨1, _⟩ => rfl | ⟨2, _⟩ => rfl)
/-- The contraction's right operand at (a, s, o), summand k, is read at (o, k). -/
theorem ridx11 (a : Fin 4) (s : Fin 2048) (o k : Fin 4096) : ridx_main_v11 (ix3 a s o) k = ix2 o k :=
  funext fun d => Fin.ext (by match d with | ⟨0, _⟩ => rfl | ⟨1, _⟩ => rfl)

/-! ## The row maximum -/

/-- The reduced index (a, s) with the coordinate k put back on the last axis is (a, s, k). -/
theorem lift_row (h : S4x2048x4096.Reduces [2] S4x2048) (a : Fin 4) (s : Fin 2048) (k : Fin (S4x2048x4096.size 2)) :
    h.lift (ix2 a s) k = ix3 a s (⟨k.val, k.isLt⟩ : Fin 4096) := by
  funext c; apply Fin.ext
  fin_cases c <;> rfl

/-- From −∞ the maximum over the last axis, at (a, s), is the fold by max over k of the entries (a, s, k). -/
theorem rowMax (y : FVec Ideal S4x2048x4096 .f32) (a : Fin 4) (s : Fin 2048) :
    Host.reduce FloatOps.maximumf y (constant S_ .f32 0xFF800000#32) reducesTo_S4x2048x4096_S4x2048_d2 h_S_ (ix2 a s)
      = (Finset.univ : Finset (Fin 4096)).fold max (Ideal.ofBits .f32 0xFF800000#32) (fun k => y (ix3 a s k)) := by
  have h : S4x2048x4096.Reduces [2] S4x2048 := by decide
  rw [Host.reduce_eq_fold_single FloatOps.maximumf y _ reducesTo_S4x2048x4096_S4x2048_d2 h h_S_]
  have hf : (y ∘ h.lift (ix2 a s)) = fun k : Fin 4096 => y (ix3 a s k) := funext fun k => congrArg y (lift_row h a s k)
  exact congrArg (fun f => Finset.fold max (Ideal.ofBits .f32 0xFF800000#32) f (Finset.univ : Finset (Fin 4096))) hf

/-! ## The first quantization -/

-- the three literal words stay symbols: every equation below is between terms that name them, none evaluates one
attribute [local irreducible] Ideal.ofBits Ideal.ieee

/-- A maximum with ε divided by 127, over the largest magnitude of a row, is the row's step. -/
theorem scale_of (m : EReal) {K : ℕ} (r : Fin K → EReal) (hm : m = absMax r) :
    FloatOps.hostDivf (F := Ideal) (φ := .f32)
        (FloatOps.maximumf (F := Ideal) (φ := .f32) (FloatOps.ofBits (F := Ideal) .f32 0x3727C5AC#32) m)
        (FloatOps.ofBits (F := Ideal) .f32 0x42FE0000#32) = scale r := by
  subst hm
  simp only [Ideal.hostDivf_def, Ideal.maximumf_def, Ideal.ofBits_def]
  unfold scale
  rfl

/-- The first step, read at (a, s, 0), is the step of the input row (a, s). -/
theorem step1 (x : (⟨S4x2048x4096, .f32⟩ : BufTy).Contents (Elt Ideal)) (a : Fin 4) (s : Fin 2048) :
    val_main_v5 (F := Ideal) x (ix3 a s (0 : Fin 1)) = scale (fun k : Fin 4096 => x (ix3 a s k)) := by
  refine (val_main_v5_apply (F := Ideal) x _).trans ?_
  rw [val_main_v3_apply, val_main_call0_v1_apply, val_main_call0_v0_apply, val_main_cst_0_apply,
    val_main_v4_apply, val_main_cst_1_apply]
  refine scale_of _ (fun k : Fin 4096 => x (ix3 a s k)) ?_
  refine (val_main_v2_apply (F := Ideal) x _).trans ?_
  refine (congrArg (val_main_v1 (F := Ideal) x) (idx2 a s)).trans ?_
  refine (rowMax (val_main_v0 (F := Ideal) x) a s).trans ?_
  unfold absMax
  rfl

/-- An entry divided by the step, rounded to nearest (ties to even), times the step is the entry fake-quantized. -/
theorem fq_of (v d1 d2 : EReal) {K : ℕ} (r : Fin K → EReal) (k : Fin K) (hv : v = r k) (h1 : d1 = scale r) (h2 : d2 = scale r) :
    FloatOps.mulf (F := Ideal) (φ := .f32)
        (FloatOps.hostUnary (F := Ideal) (φ := .f32) .roundeven (FloatOps.hostDivf (F := Ideal) (φ := .f32) v d1)) d2
      = fakeQuant r k := by
  subst hv h1 h2
  simp only [Ideal.mulf_def, Ideal.hostUnary_roundeven_def, Ideal.hostDivf_def]
  unfold fakeQuant code
  rfl

/-- The quantized input at (a, s, k) is the input row (a, s) fake-quantized, at k. -/
theorem quant10 (x : (⟨S4x2048x4096, .f32⟩ : BufTy).Contents (Elt Ideal)) (a : Fin 4) (s : Fin 2048) (k : Fin 4096) :
    val_main_v10 (F := Ideal) x (ix3 a s k) = fakeQuant (fun k : Fin 4096 => x (ix3 a s k)) k := by
  refine (val_main_v10_apply (F := Ideal) x _).trans ?_
  rw [val_main_v8_apply, val_main_v7_apply]
  refine fq_of _ _ _ (fun k : Fin 4096 => x (ix3 a s k)) k rfl ?_ ?_
  · exact (val_main_v6_apply (F := Ideal) x _).trans ((congrArg (val_main_v5 (F := Ideal) x) (idx6 a s k)).trans (step1 x a s))
  · exact (val_main_v9_apply (F := Ideal) x _).trans ((congrArg (val_main_v5 (F := Ideal) x) (idx9 a s k)).trans (step1 x a s))

/-! ## The dense layer -/

/-- The sum of products plus the bias entry is the dense layer's entry. -/
theorem dense_of {K N : ℕ} (r : Fin K → EReal) (W : Fin N → Fin K → EReal) (b : Fin N → EReal) (o : Fin N) (t c : EReal)
    (ht : t = ∑ k, fakeQuant r k * W o k) (hc : c = b o) :
    FloatOps.addf (F := Ideal) (φ := .f32) t c = denseQuant r W b o := by
  subst ht hc
  simp only [Ideal.addf_def]
  unfold denseQuant
  rfl

/-- The dense layer's output at (a, s, o) is the dense layer on the fake-quantized input row (a, s), at o. -/
theorem lin (x : (⟨S4x2048x4096, .f32⟩ : BufTy).Contents (Elt Ideal)) (W : (⟨S4096x4096, .f32⟩ : BufTy).Contents (Elt Ideal))
    (b : (⟨S4096, .f32⟩ : BufTy).Contents (Elt Ideal)) (a : Fin 4) (s : Fin 2048) (o : Fin 4096) :
    val_main_v14 (F := Ideal) x W b (ix3 a s o)
      = denseQuant (fun k : Fin 4096 => x (ix3 a s k)) (fun (o k : Fin 4096) => W (ix2 o k)) (fun o : Fin 4096 => b (ix1 o)) o := by
  refine (val_main_v14_apply (F := Ideal) x W b _).trans ?_
  refine dense_of (fun k : Fin 4096 => x (ix3 a s k)) (fun (o k : Fin 4096) => W (ix2 o k)) (fun o : Fin 4096 => b (ix1 o)) o _ _ ?_ ?_
  · refine (val_main_v11_apply x W (ix3 a s o)).trans (Finset.sum_congr rfl fun k _ => ?_)
    refine (congrArg (fun j => val_main_v10 (F := Ideal) x j * W (ridx_main_v11 (ix3 a s o) k)) (lidx11 a s o k)).trans ?_
    refine (congrArg (fun j => val_main_v10 (F := Ideal) x (ix3 a s k) * W j) (ridx11 a s o k)).trans ?_
    exact congrArg (· * W (ix2 o k)) (quant10 x a s k)
  · exact (val_main_v13_apply (F := Ideal) b _).trans ((val_main_v12_apply (F := Ideal) b _).trans (congrArg b (idx12_13 a s o)))

/-! ## The second quantization -/

/-- The second step, read at (a, s, 0), is the step of the dense layer's row (a, s). -/
theorem step2 (x : (⟨S4x2048x4096, .f32⟩ : BufTy).Contents (Elt Ideal)) (W : (⟨S4096x4096, .f32⟩ : BufTy).Contents (Elt Ideal))
    (b : (⟨S4096, .f32⟩ : BufTy).Contents (Elt Ideal)) (a : Fin 4) (s : Fin 2048) :
    val_main_v20 (F := Ideal) x W b (ix3 a s (0 : Fin 1)) = scale (fun k : Fin 4096 => val_main_v14 (F := Ideal) x W b (ix3 a s k)) := by
  refine (val_main_v20_apply (F := Ideal) x W b _).trans ?_
  rw [val_main_v18_apply, val_main_call2_v1_apply, val_main_call2_v0_apply, val_main_cst_3_apply,
    val_main_v19_apply, val_main_cst_4_apply]
  refine scale_of _ (fun k : Fin 4096 => val_main_v14 (F := Ideal) x W b (ix3 a s k)) ?_
  refine (val_main_v17_apply (F := Ideal) x W b _).trans ?_
  refine (congrArg (val_main_v16 (F := Ideal) x W b) (idx17 a s)).trans ?_
  refine (rowMax (val_main_v15 (F := Ideal) x W b) a s).trans ?_
  unfold absMax
  rfl

/-- The reference's result at (a, s, o): the dense layer's row (a, s), fake-quantized, at o. -/
theorem result_apply
    (x : (⟨S4x2048x4096, .f32⟩ : BufTy).Contents (Elt Ideal)) (W : (⟨S4096x4096, .f32⟩ : BufTy).Contents (Elt Ideal))
    (b : (⟨S4096, .f32⟩ : BufTy).Contents (Elt Ideal)) (a : Fin 4) (s : Fin 2048) (o : Fin 4096) :
    val_main_v25 (F := Ideal) x W b (ix3 a s o)
      = fakeQuant (denseQuant (fun k : Fin 4096 => x (ix3 a s k)) (fun (o k : Fin 4096) => W (ix2 o k))
          (fun o : Fin 4096 => b (ix1 o))) o := by
  have hrow : (fun k : Fin 4096 => val_main_v14 (F := Ideal) x W b (ix3 a s k))
      = denseQuant (fun k : Fin 4096 => x (ix3 a s k)) (fun (o k : Fin 4096) => W (ix2 o k)) (fun o : Fin 4096 => b (ix1 o)) :=
    funext fun k => lin x W b a s k
  refine Eq.trans ?_ (congrArg (fun r : Fin 4096 → EReal => fakeQuant r o) hrow)
  refine (val_main_v25_apply (F := Ideal) x W b _).trans ?_
  rw [val_main_v23_apply, val_main_v22_apply]
  refine fq_of _ _ _ (fun k : Fin 4096 => val_main_v14 (F := Ideal) x W b (ix3 a s k)) o rfl ?_ ?_
  · exact (val_main_v21_apply (F := Ideal) x W b _).trans ((congrArg (val_main_v20 (F := Ideal) x W b) (idx21 a s o)).trans (step2 x W b a s))
  · exact (val_main_v24_apply (F := Ideal) x W b _).trans ((congrArg (val_main_v20 (F := Ideal) x W b) (idx24 a s o)).trans (step2 x W b a s))

end Cert.ReferenceIdeal.RefValue

end
-- ==== Proof.lean ====
/-
  A per-token fake-quantized linear layer with a fake-quantized result, fused into one kernel, against its reference.

  Both programs take activations x [4, 2048, 4096], weights W [4096, 4096] and a bias b [4096]. For each token row
  r = x (a, s, ·) let step(r) = max(ε, max_k |r k|) / 127 and code(r) k = round-to-nearest-even (r k / step(r)).
    The reference fake-quantizes the row, q k = code(r) k · step(r), applies the layer, y o = ∑ k, q k · W (o, k) + b o,
    and fake-quantizes y the same way.
    The kernel feeds the integer codes to the matrix unit and applies the step afterwards,
    y o = (∑ k, code(r) k · W (o, k)) · step(r) + b o, then fake-quantizes y.
  Over the extended reals the two y agree as soon as step(r) is a nonnegative real, because a nonnegative real factor
  distributes over any finite sum; and step(r) is a nonnegative real when the row's entries are real numbers, which is
  what the precondition says of x. Nothing is needed of W or b. The changes of float format on the way into the matrix
  unit are the identity on the extended reals, and the host's and the kernel's rounding, magnitude, maximum and quotient
  are the same functions there.

  The kernel's frame and the word-level kernel's frame are the generated frame certificates. The kernel's value is read
  off the generated frame run: the stored tile entry by entry (Proof/KernelBody.lean), the 64 tiles as one array
  (Proof/KernelTiles.lean), the reshapes and the transpose around the region (Proof/KernelResult.lean). The reference's
  run is read stage by stage (Proof/ReferenceRun.lean) and its result entry by entry (Proof/ReferenceValue.lean). The
  precondition is decoded in Proof/FiniteInputs.lean, the arithmetic is in Proof/RowQuant.lean.
-/
import proofs.«107071_j61598420959615_2_alg».proof.Defs
import proofs.«107071_j61598420959615_2_alg».proof.Proof.Gen.Kernel
import proofs.«107071_j61598420959615_2_alg».proof.Proof.Gen.Kernel.Frame
import proofs.«107071_j61598420959615_2_alg».proof.Proof.Gen.KernelIdeal
import proofs.«107071_j61598420959615_2_alg».proof.Proof.Gen.KernelIdeal.Frame
import proofs.«107071_j61598420959615_2_alg».proof.Proof.Gen.ReferenceIdeal
import proofs.«107071_j61598420959615_2_alg».proof.Proof.Gen.Pre_finite_inputs
import proofs.«107071_j61598420959615_2_alg».proof.Proof.RowQuant
import proofs.«107071_j61598420959615_2_alg».proof.Proof.FiniteInputs
import proofs.«107071_j61598420959615_2_alg».proof.Proof.KernelResult
import proofs.«107071_j61598420959615_2_alg».proof.Proof.ReferenceRun
import proofs.«107071_j61598420959615_2_alg».proof.Proof.ReferenceValue
import Idealize.ShloMosaic.Adequacy
import Idealize.ShloMosaic.Init

noncomputable section

open Idealize.ShloMosaic Idealize.ShloMosaic.TcCoe Idealize.SL.Sem Idealize.ShloMosaic.ValueIdx

namespace Cert.Proof.Claims

/-- Under the precondition, the kernel program's result array is the reference's last stage applied to the same three
    arguments: entry by entry both are the fake quantization of the dense layer's row, and the two spellings of that
    row agree because the activation row's step is a nonnegative real. -/
theorem kernel_value (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) = (fun _ => 1#1)) :
    Pipeline.afterTail₀ Cert.KernelIdeal.cfgs (Cert.KernelIdeal.Gen.dats (F := Ideal) m) 0 (Cert.KernelIdeal.Gen.V0 m)
        [Cert.KernelIdeal.Gen.hostOps1] c Cert.KernelIdeal.main_v5
      = Cert.ReferenceIdeal.ReadP.val_main_v25 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  funext i
  obtain ⟨a, s, o, rfl⟩ : ∃ (a : Fin 4) (s : Fin 2048) (o : Fin 4096), i = ix3 a s o := ⟨i 0, i 1, i 2, eq_ix3 i⟩
  refine (Cert.KernelIdeal.Result.result_apply m c a s o).trans ?_
  refine Eq.trans ?_ (Cert.ReferenceIdeal.RefValue.result_apply _ _ _ a s o).symm
  exact congrArg (fun d => Cert.RowQuant.fakeQuant d o)
    (Cert.RowQuant.denseScaled_eq_of_real (by decide) _
      (fun k => Cert.FiniteInputs.arg0_real _ _ _ hpre (ix3 a s k)) _ _)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote nothing: there is nothing to preserve. -/
theorem preserves : Cert.preserves_Kernel_KernelIdeal := trivial

/-- Both programs end with the reference's last stage of the (agreeing) arguments in their result buffers. -/
theorem algebraic : Cert.algebraic_KernelIdeal_ReferenceIdeal := by
  intro m ρ m' ρ' hpre hagree
  refine ⟨fun c => Cert.ReferenceIdeal.ReadP.val_main_v25 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨?_, ?_, ?_, ?_⟩) (Cert.KernelIdeal.Gen.run_main (F := Ideal) m ρ)
    · exact ((h c).2 Cert.KernelIdeal.main_v5 (Pipeline.mem_restRefs_of Cert.KernelIdeal.main_v5 (by decide) (by decide))).trans
        (kernel_value m c (hpre c))
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
    · exact ((h c).2 Cert.KernelIdeal.main_arg2 (Pipeline.mem_restRefs_of Cert.KernelIdeal.main_arg2 (by decide) (by decide))).trans
        (Cert.KernelIdeal.Gen.W_main_arg2 m (Cert.KernelIdeal.Gen.dats m) c)
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2]

end Cert.Proof.Claims

namespace Cert.Proof

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
